-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_1)) (v1 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_1) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x4096 : Shape := ⟨2, ![8192, 4096]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S4096x4096 .f32) (main_arg5 : FVec F S4096 .f32) (main_arg6 : FVec F S1024x4096 .f32) (main_arg7 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x4096 .f32) (main_arg2 : FVec F S4096x1024 .f32) (main_arg3 : FVec F S4096 .f32) (main_arg4 : FVec F S4096x4096 .f32) (main_arg5 : FVec F S4096 .f32) (main_arg6 : FVec F S1024x4096 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S8192x1024 : Shape := ⟨2, ![8192, 1024]⟩
abbrev S8192x4096 : Shape := ⟨2, ![8192, 4096]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S1x4096 : Shape := ⟨2, ![1, 4096]⟩
abbrev S1x1024 : Shape := ⟨2, ![1, 1024]⟩
abbrev S256x1024 : Shape := ⟨2, ![256, 1024]⟩
abbrev S256x128 : Shape := ⟨2, ![256, 128]⟩
abbrev S4096x128 : Shape := ⟨2, ![4096, 128]⟩
abbrev S256x4096 : Shape := ⟨2, ![256, 4096]⟩
abbrev S256x512 : Shape := ⟨2, ![256, 512]⟩
abbrev S1x512 : Shape := ⟨2, ![1, 512]⟩
abbrev S1024x512 : Shape := ⟨2, ![1024, 512]⟩

abbrev nBuf : Space → Nat
  | .hbm => 16
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S1024x4096, .f32⟩
  | .hbm, ⟨7, _⟩ => ⟨S1024, .f32⟩
  | .hbm, ⟨8, _⟩ => ⟨S4096x1024, .bf16⟩
  | .hbm, ⟨9, _⟩ => ⟨S4096x4096, .bf16⟩
  | .hbm, ⟨10, _⟩ => ⟨S1024x4096, .bf16⟩
  | .hbm, ⟨11, _⟩ => ⟨S4096, .f32⟩
  | .hbm, ⟨12, _⟩ => ⟨S1x4096, .f32⟩
  | .hbm, ⟨13, _⟩ => ⟨S1x1024, .f32⟩
  | .hbm, ⟨14, _⟩ => ⟨S8192x4096, .f32⟩
  | .hbm, ⟨15, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S4096x1024, .bf16⟩
  | .local _ .vmem, ⟨5, _⟩ => ⟨S1x4096, .f32⟩
  | .local _ .vmem, ⟨6, _⟩ => ⟨S4096x128, .bf16⟩
  | .local _ .vmem, ⟨7, _⟩ => ⟨S4096x128, .bf16⟩
  | .local _ .vmem, ⟨8, _⟩ => ⟨S1024x4096, .bf16⟩
  | .local _ .vmem, ⟨9, _⟩ => ⟨S1x1024, .f32⟩
  | .local _ .vmem, ⟨10, _⟩ => ⟨S256x4096, .f32⟩
  | .local _ .vmem, ⟨11, _⟩ => ⟨S256x4096, .f32⟩
  | .local _ .vmem, ⟨12, _⟩ => ⟨S256x1024, .f32⟩
  | .local _ .vmem, ⟨13, _⟩ => ⟨S256x1024, .f32⟩
  | .local _ .vmem, ⟨14, _⟩ => ⟨S256x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v13 : BitVec 1 := Scalar.cmpi .eq arg1 c31_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x128_S256x128_0_0 : ∀ a, (![0, 0] : Fin 2 → Nat) a + S256x128.size a ≤ S256x128.size a
  h_S256x128 : 0 < S256x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S256x4096_S256x512_0_0 : ∀ a, (![0, 0] : Fin 2 → Nat) a + S256x512.size a ≤ S256x4096.size a
  h_S256x512 : 0 < S256x512.numel
  inb_S1x4096_S1x512_0_0 : ∀ a, (![0, 0] : Fin 2 → Nat) a + S1x512.size a ≤ S1x4096.size a
  h_S1x512 : 0 < S1x512.numel
  shapeCasts_S1x512_S1x512 : S1x512.ShapeCasts S1x512
  broadcasts_S1x512_S256x512 : S1x512.Broadcasts S256x512
  inb_S1024x4096_S1024x512_0_0 : ∀ a, (![0, 0] : Fin 2 → Nat) a + S1024x512.size a ≤ S1024x4096.size a
  h_S1024x512 : 0 < S1024x512.numel
  shapeCasts_S1024x512_S1024x512 : S1024x512.ShapeCasts S1024x512
  inb_S256x4096_S256x512_0_512 : ∀ a, (![0, 512] : Fin 2 → Nat) a + S256x512.size a ≤ S256x4096.size a
  inb_S1x4096_S1x512_0_512 : ∀ a, (![0, 512] : Fin 2 → Nat) a + S1x512.size a ≤ S1x4096.size a
  inb_S1024x4096_S1024x512_0_512 : ∀ a, (![0, 512] : Fin 2 → Nat) a + S1024x512.size a ≤ S1024x4096.size a
  inb_S256x4096_S256x512_0_1024 : ∀ a, (![0, 1024] : Fin 2 → Nat) a + S256x512.size a ≤ S256x4096.size a
  inb_S1x4096_S1x512_0_1024 : ∀ a, (![0, 1024] : Fin 2 → Nat) a + S1x512.size a ≤ S1x4096.size a
  inb_S1024x4096_S1024x512_0_1024 : ∀ a, (![0, 1024] : Fin 2 → Nat) a + S1024x512.size a ≤ S1024x4096.size a
  inb_S256x4096_S256x512_0_1536 : ∀ a, (![0, 1536] : Fin 2 → Nat) a + S256x512.size a ≤ S256x4096.size a
  inb_S1x4096_S1x512_0_1536 : ∀ a, (![0, 1536] : Fin 2 → Nat) a + S1x512.size a ≤ S1x4096.size a
  inb_S1024x4096_S1024x512_0_1536 : ∀ a, (![0, 1536] : Fin 2 → Nat) a + S1024x512.size a ≤ S1024x4096.size a
  inb_S256x4096_S256x512_0_2048 : ∀ a, (![0, 2048] : Fin 2 → Nat) a + S256x512.size a ≤ S256x4096.size a
  inb_S1x4096_S1x512_0_2048 : ∀ a, (![0, 2048] : Fin 2 → Nat) a + S1x512.size a ≤ S1x4096.size a
  inb_S1024x4096_S1024x512_0_2048 : ∀ a, (![0, 2048] : Fin 2 → Nat) a + S1024x512.size a ≤ S1024x4096.size a
  inb_S256x4096_S256x512_0_2560 : ∀ a, (![0, 2560] : Fin 2 → Nat) a + S256x512.size a ≤ S256x4096.size a
  inb_S1x4096_S1x512_0_2560 : ∀ a, (![0, 2560] : Fin 2 → Nat) a + S1x512.size a ≤ S1x4096.size a
  inb_S1024x4096_S1024x512_0_2560 : ∀ a, (![0, 2560] : Fin 2 → Nat) a + S1024x512.size a ≤ S1024x4096.size a
  inb_S256x4096_S256x512_0_3072 : ∀ a, (![0, 3072] : Fin 2 → Nat) a + S256x512.size a ≤ S256x4096.size a
  inb_S1x4096_S1x512_0_3072 : ∀ a, (![0, 3072] : Fin 2 → Nat) a + S1x512.size a ≤ S1x4096.size a
  inb_S1024x4096_S1024x512_0_3072 : ∀ a, (![0, 3072] : Fin 2 → Nat) a + S1024x512.size a ≤ S1024x4096.size a
  inb_S256x4096_S256x512_0_3584 : ∀ a, (![0, 3584] : Fin 2 → Nat) a + S256x512.size a ≤ S256x4096.size a
  inb_S1x4096_S1x512_0_3584 : ∀ a, (![0, 3584] : Fin 2 → Nat) a + S1x512.size a ≤ S1x4096.size a
  inb_S1024x4096_S1024x512_0_3584 : ∀ a, (![0, 3584] : Fin 2 → Nat) a + S1024x512.size a ≤ S1024x4096.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S4096x1024_S256x4096_1_1_0_0_n_n_wf : DotDims.WF S256x1024 S4096x1024 S256x4096 [1] [1] [0] [0] [] []
  dot_S256x128_S4096x128_S256x4096_1_1_0_0_n_n_wf : DotDims.WF S256x128 S4096x128 S256x4096 [1] [1] [0] [0] [] []
  dot_S256x512_S1024x512_S256x1024_1_1_0_0_n_n_wf : DotDims.WF S256x512 S1024x512 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S8192x4096.size a
  hwx0_1 : ∀ i : grid0.Coords, EltTy.bits .f32 = 32 ∨ (Rect.block (s := S8192x4096) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S4096x4096.size a
  hwx0_4 : ∀ i : grid0.Coords, EltTy.bits .bf16 = 32 ∨ (Rect.block (s := S4096x4096) S4096x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S8192x4096.size a
  hwx0_7 : ∀ i : grid0.Coords, EltTy.bits .f32 = 32 ∨ (Rect.block (s := S8192x4096) S256x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf
def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S256x4096.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x4096 : Shape := ⟨2, ![8192, 4096]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S1x4096 : Shape := ⟨2, ![1, 4096]⟩
abbrev S_ : Shape := ⟨0, ![]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S1024x4096, .f32⟩
  | .hbm, ⟨7, _⟩ => ⟨S1024, .f32⟩
  | .hbm, ⟨8, _⟩ => ⟨S1024x4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S4096x4096, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S4096x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S4096x4096_S4096x4096_1_0 : S4096x4096.Transposes [1, 0] S4096x4096
  bcast_S_S8192x4096 : S_.BroadcastsInDim S8192x4096 (![] : Fin 0 → Fin S8192x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.Spec.lean ====
/-
  The specification. One step of a ReLU recurrent cell on the extended reals, as functions of the eight argument
  arrays, entry by entry:

    pre(r, h)       = (Σ_d X(r,d)·W_in(h,d) + Σ_j state(r,j)·W_rec(h,j)) + (b_in(h) + b_rec(h))
    newState(r, h)  = max(pre(r, h), 0)
    out(r, o)       = max(Σ_h newState(r,h)·W_out(o,h) + b_out(o), 0)

  Both matrix products contract the LAST axis of both factors (a product with a transpose that is never formed).
  The zero of the two maxima is kept as the float word it is written as; nothing here depends on its value.
-/
import Idealize.ShloMosaic.PureOps.Ideal
import Idealize.ShloMosaic.Lib.ValueIdx

noncomputable section

namespace Cert.Spec

open Idealize.ShloMosaic Idealize.ShloMosaic.ValueIdx

/-- The zero both programs clamp against, as the word they spell. -/
abbrev zeroWord : EReal := Ideal.ofBits .f32 0x00000000#32

/-- The pre-activation at row `r`, hidden unit `h`: input product plus recurrent product, plus the two biases. -/
def pre (X : FVec Ideal ⟨2, ![8192, 1024]⟩ .f32) (St : FVec Ideal ⟨2, ![8192, 4096]⟩ .f32)
    (Win : FVec Ideal ⟨2, ![4096, 1024]⟩ .f32) (bin : FVec Ideal ⟨1, ![4096]⟩ .f32)
    (Wrec : FVec Ideal ⟨2, ![4096, 4096]⟩ .f32) (brec : FVec Ideal ⟨1, ![4096]⟩ .f32)
    (r : Fin 8192) (h : Fin 4096) : EReal :=
  ((∑ d : Fin 1024, X (ix2 r d) * Win (ix2 h d)) + ∑ j : Fin 4096, St (ix2 r j) * Wrec (ix2 h j))
    + (bin (ix1 h) + brec (ix1 h))

/-- The new hidden state: the pre-activation clamped below at zero. -/
def newState (X : FVec Ideal ⟨2, ![8192, 1024]⟩ .f32) (St : FVec Ideal ⟨2, ![8192, 4096]⟩ .f32)
    (Win : FVec Ideal ⟨2, ![4096, 1024]⟩ .f32) (bin : FVec Ideal ⟨1, ![4096]⟩ .f32)
    (Wrec : FVec Ideal ⟨2, ![4096, 4096]⟩ .f32) (brec : FVec Ideal ⟨1, ![4096]⟩ .f32) :
    FVec Ideal ⟨2, ![8192, 4096]⟩ .f32 :=
  fun i => max (pre X St Win bin Wrec brec (i 0) (i 1)) zeroWord

/-- The output: the new state against the output weights, plus the output bias, clamped below at zero. -/
def out (ns : FVec Ideal ⟨2, ![8192, 4096]⟩ .f32) (Wout : FVec Ideal ⟨2, ![1024, 4096]⟩ .f32)
    (bout : FVec Ideal ⟨1, ![1024]⟩ .f32) : FVec Ideal ⟨2, ![8192, 1024]⟩ .f32 :=
  fun i => max ((∑ h : Fin 4096, ns (ix2 (i 0) h) * Wout (ix2 (i 1) h)) + bout (ix1 (i 1))) zeroWord

theorem newState_apply (X : FVec Ideal ⟨2, ![8192, 1024]⟩ .f32) (St : FVec Ideal ⟨2, ![8192, 4096]⟩ .f32)
    (Win : FVec Ideal ⟨2, ![4096, 1024]⟩ .f32) (bin : FVec Ideal ⟨1, ![4096]⟩ .f32)
    (Wrec : FVec Ideal ⟨2, ![4096, 4096]⟩ .f32) (brec : FVec Ideal ⟨1, ![4096]⟩ .f32) (r : Fin 8192) (h : Fin 4096) :
    newState X St Win bin Wrec brec (ix2 r h) = max (pre X St Win bin Wrec brec r h) zeroWord := rfl

theorem out_apply (ns : FVec Ideal ⟨2, ![8192, 4096]⟩ .f32) (Wout : FVec Ideal ⟨2, ![1024, 4096]⟩ .f32)
    (bout : FVec Ideal ⟨1, ![1024]⟩ .f32) (r : Fin 8192) (o : Fin 1024) :
    out ns Wout bout (ix2 r o) = max ((∑ h : Fin 4096, ns (ix2 r h) * Wout (ix2 o h)) + bout (ix1 o)) zeroWord := rfl

end Cert.Spec

end
-- ==== Proof.RefSpec.lean ====
/-
  The reference program is the specification.

  Read entry by entry on the extended reals, the reference computes

    new state (r, h) = max(((A + b_in(h)) + R) + b_rec(h), 0),
        A = Σ_d X(r,d)·W_in(h,d),   R = Σ_j state(r,j)·W_rec(h,j),
    out (r, o)       = max(Σ_h newState(r,h)·W_out(o,h) + b_out(o), 0).

  Each matrix product is written as a product with a transposed weight matrix; read at an entry, the transpose only
  exchanges the two coordinates of the weight, so the product contracts the last axis of both factors, as the
  specification writes it. Each bias is a vector broadcast along the rows: entry (r, h) of the broadcast is entry h
  of the vector. The zero of the two maxima is a broadcast scalar constant, the same word at every entry.

  The specification groups the pre-activation as (A + R) + (b_in(h) + b_rec(h)). The two groupings are equal by
  commutativity and associativity of addition on the extended reals (a commutative additive monoid): no finiteness
  and no cancellation is used. Everything else is reading the stages at an index.
-/
import proofs.«174748_j50105088475253_2_alg».proof.Proof.Spec
import proofs.«174748_j50105088475253_2_alg».proof.Proof.Gen.ReferenceIdeal.Read

noncomputable section

namespace Cert.RefSpec

open Idealize.ShloMosaic Idealize.ShloMosaic.ValueIdx Cert.ReferenceIdeal Cert.ReferenceIdeal.Read

/-! ## Where each stage reads its operands, in coordinates -/

/-- Entry (r, h) of the input product reads X at (r, d) in its d-th term. -/
theorem input_lhs (r : Fin 8192) (h : Fin 4096) (d : Fin 1024) : lidx_main_v1 (ix2 r h) d = ix2 r d :=
  funext fun a => Fin.ext (by match a with | ⟨0, _⟩ => rfl | ⟨1, _⟩ => rfl)

/-- Entry (r, h) of the input product reads the transposed W_in at (d, h), which is W_in at (h, d). -/
theorem input_rhs (r : Fin 8192) (h : Fin 4096) (d : Fin 1024) :
    idx_main_v0 (ridx_main_v1 (ix2 r h) d) = ix2 h d :=
  funext fun a => Fin.ext (by match a with | ⟨0, _⟩ => rfl | ⟨1, _⟩ => rfl)

/-- Entry (r, h) of the recurrent product reads the state at (r, j) in its j-th term. -/
theorem rec_lhs (r : Fin 8192) (h j : Fin 4096) : lidx_main_v6 (ix2 r h) j = ix2 r j :=
  funext fun a => Fin.ext (by match a with | ⟨0, _⟩ => rfl | ⟨1, _⟩ => rfl)

/-- Entry (r, h) of the recurrent product reads the transposed W_rec at (j, h), which is W_rec at (h, j). -/
theorem rec_rhs (r : Fin 8192) (h j : Fin 4096) : idx_main_v5 (ridx_main_v6 (ix2 r h) j) = ix2 h j :=
  funext fun a => Fin.ext (by match a with | ⟨0, _⟩ => rfl | ⟨1, _⟩ => rfl)

/-- Entry (r, h) of the broadcast input bias is entry h of the bias vector. -/
theorem input_bias_idx (r : Fin 8192) (h : Fin 4096) : idx_main_v2 (idx_main_v3 (ix2 r h)) = ix1 h :=
  funext fun a => Fin.ext (by match a with | ⟨0, _⟩ => rfl)

/-- Entry (r, h) of the broadcast recurrent bias is entry h of the bias vector. -/
theorem rec_bias_idx (r : Fin 8192) (h : Fin 4096) : idx_main_v8 (idx_main_v9 (ix2 r h)) = ix1 h :=
  funext fun a => Fin.ext (by match a with | ⟨0, _⟩ => rfl)

/-- Entry (r, o) of the output product reads the new state at (r, h) in its h-th term. -/
theorem out_lhs (r : Fin 8192) (o : Fin 1024) (h : Fin 4096) : lidx_main_v13 (ix2 r o) h = ix2 r h :=
  funext fun a => Fin.ext (by match a with | ⟨0, _⟩ => rfl | ⟨1, _⟩ => rfl)

/-- Entry (r, o) of the output product reads the transposed W_out at (h, o), which is W_out at (o, h). -/
theorem out_rhs (r : Fin 8192) (o : Fin 1024) (h : Fin 4096) :
    idx_main_v12 (ridx_main_v13 (ix2 r o) h) = ix2 o h :=
  funext fun a => Fin.ext (by match a with | ⟨0, _⟩ => rfl | ⟨1, _⟩ => rfl)

/-- Entry (r, o) of the broadcast output bias is entry o of the bias vector. -/
theorem out_bias_idx (r : Fin 8192) (o : Fin 1024) : idx_main_v14 (idx_main_v15 (ix2 r o)) = ix1 o :=
  funext fun a => Fin.ext (by match a with | ⟨0, _⟩ => rfl)

/-! ## The stages at an entry -/

/-- The input product at (r, h): Σ_d X(r,d)·W_in(h,d). -/
theorem input_product (x0 : (⟨S8192x1024, .f32⟩ : BufTy).Contents (Elt Ideal))
    (x2 : (⟨S4096x1024, .f32⟩ : BufTy).Contents (Elt Ideal)) (r : Fin 8192) (h : Fin 4096) :
    val_main_v1 (F := Ideal) x0 x2 (ix2 r h) = ∑ d : Fin 1024, x0 (ix2 r d) * x2 (ix2 h d) := by
  rw [val_main_v1_apply]
  refine Finset.sum_congr rfl fun d _ => ?_
  rw [val_main_v0_apply, input_lhs, input_rhs]

/-- The recurrent product at (r, h): Σ_j state(r,j)·W_rec(h,j). -/
theorem rec_product (x1 : (⟨S8192x4096, .f32⟩ : BufTy).Contents (Elt Ideal))
    (x4 : (⟨S4096x4096, .f32⟩ : BufTy).Contents (Elt Ideal)) (r : Fin 8192) (h : Fin 4096) :
    val_main_v6 (F := Ideal) x1 x4 (ix2 r h) = ∑ j : Fin 4096, x1 (ix2 r j) * x4 (ix2 h j) := by
  rw [val_main_v6_apply]
  refine Finset.sum_congr rfl fun j _ => ?_
  rw [val_main_v5_apply, rec_lhs, rec_rhs]

/-- The broadcast input bias at (r, h) is b_in(h). -/
theorem input_bias (x3 : (⟨S4096, .f32⟩ : BufTy).Contents (Elt Ideal)) (r : Fin 8192) (h : Fin 4096) :
    val_main_v3 (F := Ideal) x3 (ix2 r h) = x3 (ix1 h) := by
  rw [val_main_v3_apply, val_main_v2_apply, input_bias_idx]

/-- The broadcast recurrent bias at (r, h) is b_rec(h). -/
theorem rec_bias (x5 : (⟨S4096, .f32⟩ : BufTy).Contents (Elt Ideal)) (r : Fin 8192) (h : Fin 4096) :
    val_main_v9 (F := Ideal) x5 (ix2 r h) = x5 (ix1 h) := by
  rw [val_main_v9_apply, val_main_v8_apply, rec_bias_idx]

/-- The broadcast output bias at (r, o) is b_out(o). -/
theorem out_bias (x7 : (⟨S1024, .f32⟩ : BufTy).Contents (Elt Ideal)) (r : Fin 8192) (o : Fin 1024) :
    val_main_v15 (F := Ideal) x7 (ix2 r o) = x7 (ix1 o) := by
  rw [val_main_v15_apply, val_main_v14_apply, out_bias_idx]

/-- The zero the new state is clamped against is, at every entry, the word the specification names. -/
theorem state_zero (i : S8192x4096.Idx) : val_main_call0_v0 (F := Ideal) i = Cert.Spec.zeroWord := by
  rw [val_main_call0_v0_apply, val_main_call0_cst_apply]
  exact Ideal.ofBits_def _

/-- The zero the output is clamped against is, at every entry, the word the specification names. -/
theorem out_zero (i : S8192x1024.Idx) : val_main_call1_v0 (F := Ideal) i = Cert.Spec.zeroWord := by
  rw [val_main_call1_v0_apply, val_main_call1_cst_apply]
  exact Ideal.ofBits_def _

/-- The one algebraic law: ((A + b) + R) + c = (A + R) + (b + c) in a commutative additive monoid. -/
theorem regroup (A R b c : EReal) : ((A + b) + R) + c = (A + R) + (b + c) := by
  rw [add_right_comm A b R, add_assoc]

/-- The reference's pre-activation at (r, h) is the specification's. -/
theorem pre_eq (x0 : (⟨S8192x1024, .f32⟩ : BufTy).Contents (Elt Ideal)) (x1 : (⟨S8192x4096, .f32⟩ : BufTy).Contents (Elt Ideal))
    (x2 : (⟨S4096x1024, .f32⟩ : BufTy).Contents (Elt Ideal)) (x3 : (⟨S4096, .f32⟩ : BufTy).Contents (Elt Ideal))
    (x4 : (⟨S4096x4096, .f32⟩ : BufTy).Contents (Elt Ideal)) (x5 : (⟨S4096, .f32⟩ : BufTy).Contents (Elt Ideal))
    (r : Fin 8192) (h : Fin 4096) :
    val_main_v10 (F := Ideal) x0 x1 x2 x3 x4 x5 (ix2 r h) = Cert.Spec.pre x0 x1 x2 x3 x4 x5 r h := by
  rw [val_main_v10_apply, val_main_v7_apply, val_main_v4_apply, input_product, rec_product, input_bias, rec_bias,
    Ideal.addf_def, Ideal.addf_def, Ideal.addf_def]
  exact regroup _ _ _ _

/-! ## The two results -/

/-- The reference's new state is the specification's. -/
theorem newState_eq
    (x0 : (⟨S8192x1024, .f32⟩ : BufTy).Contents (Elt Ideal)) (x1 : (⟨S8192x4096, .f32⟩ : BufTy).Contents (Elt Ideal))
    (x2 : (⟨S4096x1024, .f32⟩ : BufTy).Contents (Elt Ideal)) (x3 : (⟨S4096, .f32⟩ : BufTy).Contents (Elt Ideal))
    (x4 : (⟨S4096x4096, .f32⟩ : BufTy).Contents (Elt Ideal)) (x5 : (⟨S4096, .f32⟩ : BufTy).Contents (Elt Ideal)) :
    val_main_v11 (F := Ideal) x0 x1 x2 x3 x4 x5 = Cert.Spec.newState x0 x1 x2 x3 x4 x5 := by
  funext i
  obtain ⟨r, h, rfl⟩ : ∃ (r : Fin 8192) (h : Fin 4096), i = ix2 r h := ⟨i 0, i 1, eq_ix2 i⟩
  rw [Cert.Spec.newState_apply, val_main_v11_apply, pre_eq, state_zero, Ideal.maximumf_def]

/-- The reference's output is the specification's output of the specification's new state. -/
theorem out_eq
    (x0 : (⟨S8192x1024, .f32⟩ : BufTy).Contents (Elt Ideal)) (x1 : (⟨S8192x4096, .f32⟩ : BufTy).Contents (Elt Ideal))
    (x2 : (⟨S4096x1024, .f32⟩ : BufTy).Contents (Elt Ideal)) (x3 : (⟨S4096, .f32⟩ : BufTy).Contents (Elt Ideal))
    (x4 : (⟨S4096x4096, .f32⟩ : BufTy).Contents (Elt Ideal)) (x5 : (⟨S4096, .f32⟩ : BufTy).Contents (Elt Ideal))
    (x6 : (⟨S1024x4096, .f32⟩ : BufTy).Contents (Elt Ideal)) (x7 : (⟨S1024, .f32⟩ : BufTy).Contents (Elt Ideal)) :
    val_main_v17 (F := Ideal) x0 x1 x2 x3 x4 x5 x6 x7
      = Cert.Spec.out (Cert.Spec.newState x0 x1 x2 x3 x4 x5) x6 x7 := by
  funext i
  obtain ⟨r, o, rfl⟩ : ∃ (r : Fin 8192) (o : Fin 1024), i = ix2 r o := ⟨i 0, i 1, eq_ix2 i⟩
  rw [Cert.Spec.out_apply, val_main_v17_apply, val_main_v16_apply, val_main_v13_apply, newState_eq, out_bias, out_zero,
    Ideal.maximumf_def, Ideal.addf_def]
  refine congrArg (fun s => max (s + x7 (ix1 o)) Cert.Spec.zeroWord) ?_
  refine Finset.sum_congr rfl fun h _ => ?_
  rw [val_main_v12_apply, out_lhs, out_rhs]

end Cert.RefSpec

end
-- ==== Proof.Pieces.lean ====
/-
  What one grid step leaves behind, as values.

  The accumulator (a 256 x 4096 scratch that lives across the 32 steps of a row tile):
    * at the first step of a row tile it is SET to the input product of the tile and the step's recurrent tile is
      added to it;
    * at every later step the step's recurrent tile is added to what the step before left.
  At the last step of a row tile the body also writes the two results, from the accumulator it has just updated.
  Each of these is one pure function of the step's input blocks (and of the accumulator the step found); this module
  reads the stores the body's run left — one covering store, or eight side-by-side column strips — back as those functions.
-/
import proofs.«174748_j50105088475253_2_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout

set_option maxRecDepth 16384

noncomputable section

namespace Cert.KernelIdeal.Pieces

open Cert.KernelIdeal Cert.KernelIdeal.Gen Idealize.ShloMosaic Idealize.ShloMosaic.TcCoe Idealize.ShloMosaic.Tactic Idealize.ShloMosaic.ValueIdx Idealize.SL.Sem

variable {F : FTy → Type} [FloatOps F]

/-- The zero offsets of a store or load through a whole buffer. -/
theorem hz : (![0, 0] : Fin 2 → Nat) = fun _ => 0 := funext fun a => by fin_cases a <;> rfl

/-- FIRST step of a row tile: the accumulator is set to the tile's input product, then the step's recurrent tile is added. -/
theorem scratch_first (c : Dev nD) (i : grid0.Coords) (arg2 : Memref sig .tc .vmem S256x1024 .f32) (harg2 : arg2.IsWhole) (arg3 : Memref sig .tc .vmem S256x128 .f32) (harg3 : arg3.IsWhole) (arg4 : Memref sig .tc .vmem S4096x1024 .bf16) (harg4 : arg4.IsWhole) (arg5 : Memref sig .tc .vmem S1x4096 .f32) (harg5 : arg5.IsWhole) (arg6 : Memref sig .tc .vmem S4096x128 .bf16) (harg6 : arg6.IsWhole) (arg7 : Memref sig .tc .vmem S1024x4096 .bf16) (harg7 : arg7.IsWhole) (arg8 : Memref sig .tc .vmem S1x1024 .f32) (harg8 : arg8.IsWhole) (arg9 : Memref sig .tc .vmem S256x4096 .f32) (harg9 : arg9.IsWhole) (arg10 : Memref sig .tc .vmem S256x1024 .f32) (harg10 : arg10.IsWhole) (arg11 : Memref sig .tc .vmem S256x4096 .f32) (harg11 : arg11.IsWhole) (hc0 : cond0_0 i) (hc1 : ¬cond0_1 i)
    (x0 : Vec F S256x1024 .f32) (x1 : Vec F S256x128 .f32) (x2 : Vec F S4096x1024 .bf16) (x3 : Vec F S1x4096 .f32) (x4 : Vec F S4096x128 .bf16) (x5 : Vec F S1024x4096 .bf16) (x6 : Vec F S1x1024 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 = k0_pay2 x1 x4 (k0_pay1 x0 x2) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S256x4096) hz, View.readCov_unit_zero (S := S256x4096) _ hz]
  simp only [View.readAt_eq_ld, harg2.read_unread, harg3.read_unread, harg4.read_unread, harg6.read_unread,
    View.ld_unit_zero (S := S256x1024) hz, View.ld_unit_zero (S := S4096x1024) hz, View.ld_unit_zero (S := S256x128) hz,
    View.ld_unit_zero (S := S4096x128) hz]

/-- A MIDDLE step: the step's recurrent tile is added to the accumulator the step before left. -/
theorem scratch_middle (c : Dev nD) (i : grid0.Coords) (arg2 : Memref sig .tc .vmem S256x1024 .f32) (harg2 : arg2.IsWhole) (arg3 : Memref sig .tc .vmem S256x128 .f32) (harg3 : arg3.IsWhole) (arg4 : Memref sig .tc .vmem S4096x1024 .bf16) (harg4 : arg4.IsWhole) (arg5 : Memref sig .tc .vmem S1x4096 .f32) (harg5 : arg5.IsWhole) (arg6 : Memref sig .tc .vmem S4096x128 .bf16) (harg6 : arg6.IsWhole) (arg7 : Memref sig .tc .vmem S1024x4096 .bf16) (harg7 : arg7.IsWhole) (arg8 : Memref sig .tc .vmem S1x1024 .f32) (harg8 : arg8.IsWhole) (arg9 : Memref sig .tc .vmem S256x4096 .f32) (harg9 : arg9.IsWhole) (arg10 : Memref sig .tc .vmem S256x1024 .f32) (harg10 : arg10.IsWhole) (arg11 : Memref sig .tc .vmem S256x4096 .f32) (harg11 : arg11.IsWhole) (hc0 : ¬cond0_0 i) (hc1 : ¬cond0_1 i)
    (x0 : Vec F S256x1024 .f32) (x1 : Vec F S256x128 .f32) (x2 : Vec F S4096x1024 .bf16) (x3 : Vec F S1x4096 .f32) (x4 : Vec F S4096x128 .bf16) (x5 : Vec F S1024x4096 .bf16) (x6 : Vec F S1x1024 .f32) (xs0 : Vec F S256x4096 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 = k0_pay2 x1 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero hz]
  simp only [View.readAt_eq_ld, harg3.read_unread, harg6.read_unread, harg11.read_unread,
    View.ld_unit_zero (S := S256x128) hz, View.ld_unit_zero (S := S4096x128) hz, View.ld_unit_zero (S := S256x4096) hz]

/-- The LAST step of a row tile updates the accumulator the same way (its results are read from the updated one). -/
theorem scratch_last (c : Dev nD) (i : grid0.Coords) (arg2 : Memref sig .tc .vmem S256x1024 .f32) (harg2 : arg2.IsWhole) (arg3 : Memref sig .tc .vmem S256x128 .f32) (harg3 : arg3.IsWhole) (arg4 : Memref sig .tc .vmem S4096x1024 .bf16) (harg4 : arg4.IsWhole) (arg5 : Memref sig .tc .vmem S1x4096 .f32) (harg5 : arg5.IsWhole) (arg6 : Memref sig .tc .vmem S4096x128 .bf16) (harg6 : arg6.IsWhole) (arg7 : Memref sig .tc .vmem S1024x4096 .bf16) (harg7 : arg7.IsWhole) (arg8 : Memref sig .tc .vmem S1x1024 .f32) (harg8 : arg8.IsWhole) (arg9 : Memref sig .tc .vmem S256x4096 .f32) (harg9 : arg9.IsWhole) (arg10 : Memref sig .tc .vmem S256x1024 .f32) (harg10 : arg10.IsWhole) (arg11 : Memref sig .tc .vmem S256x4096 .f32) (harg11 : arg11.IsWhole) (hc0 : ¬cond0_0 i) (hc1 : cond0_1 i)
    (x0 : Vec F S256x1024 .f32) (x1 : Vec F S256x128 .f32) (x2 : Vec F S4096x1024 .bf16) (x3 : Vec F S1x4096 .f32) (x4 : Vec F S4096x128 .bf16) (x5 : Vec F S1024x4096 .bf16) (x6 : Vec F S1x1024 .f32) (xs0 : Vec F S256x4096 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs0 = k0_pay2 x1 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [View.readAt_eq_ld, harg3.read_unread, harg6.read_unread, harg11.read_unread,
    View.ld_unit_zero (S := S256x128) hz, View.ld_unit_zero (S := S4096x128) hz, View.ld_unit_zero (S := S256x4096) hz]

/-! ## The last step's results -/

/-- One 512-column strip of the new state: the accumulator's strip plus the bias row's strip, clamped below at zero. -/
def strip (a : FVec F S256x512 .f32) (b : FVec F S1x512 .f32) : FVec F S256x512 .f32 :=
  maximumf (addf a (broadcastTo S256x512 (shapeCast S1x512 b shapeCasts_S1x512_S1x512) broadcasts_S1x512_S256x512))
    (broadcast S256x512 (Scalar.ofBits .f32 0x00000000#32))

/-- A strip at an entry: the accumulator's entry plus the bias of the entry's column, clamped below at zero. -/
theorem strip_apply (a : FVec F S256x512 .f32) (b : FVec F S1x512 .f32) (r : Fin 256) (l : Fin 512) :
    strip a b (ix2 r l)
      = FloatOps.maximumf (FloatOps.addf (a (ix2 r l)) (b (ix2 (0 : Fin 1) l))) (Scalar.ofBits .f32 0x00000000#32) := by
  unfold strip
  show FloatOps.maximumf (FloatOps.addf (a (ix2 r l))
    (broadcastTo S256x512 (shapeCast S1x512 b shapeCasts_S1x512_S1x512) broadcasts_S1x512_S256x512 (ix2 r l))) _ = _
  rw [shapeCast_self, broadcastTo_1b_ab_apply]
  rfl

/-- The new-state block as ONE function of the staging buffer's index: accumulator plus the bias of the column,
    clamped below at zero. -/
def newStateBlock (S : Vec F S256x4096 .f32) (b : Vec F S1x4096 .f32) : Vec F S256x4096 .f32 :=
  fun y => FloatOps.maximumf (FloatOps.addf (S y) (b (ix2 (0 : Fin 1) (y 1)))) (Scalar.ofBits .f32 0x00000000#32)

/-- A load through a rectangle of a buffer, after ONE covering store of `W` into it, reads `W` there. -/
theorem readCov_whole {S : Shape} {e : EltTy} {Val : EltTy → Type} [∀ e, Nonempty (Val e)] {sig' : RefSig} {κ : Kind} {sp : Space}
    (v : View sig' κ sp S e) {off : Fin S.rank → Nat} (h : off = fun _ => 0) (inb : ∀ a, off a + S.size a ≤ S.size a)
    (W : S.Idx → Val e) (r : Rect S) :
    v.readCov [(⟨Rect.unit off S.size inb, W⟩ : View.Piece Val S e)] r.toLoadRect = View.ld W r := by
  subst h
  rw [View.readCov_eq_canon_ld _ _ _ (fun y => ⟨_, List.mem_singleton_self _, by
    show y ∈ (Rect.whole S).set; rw [Rect.set_whole]; exact Finset.mem_univ y⟩), View.canon_unit_zero rfl]

/-- The strip stored at column offset `o` is the strip at `o` of the one function `newStateBlock`: the accumulator and
    the bias row are both read through rectangles that start at column `o`. -/
theorem strip_piece (S : Vec F S256x4096 .f32) (b : Vec F S1x4096 .f32) (o : Nat)
    (inbS : ∀ a, (![0, o] : Fin 2 → Nat) a + (![256, 512] : Fin 2 → Nat) a ≤ S256x4096.size a)
    (inbB : ∀ a, (![0, o] : Fin 2 → Nat) a + (![1, 512] : Fin 2 → Nat) a ≤ S1x4096.size a) (x : S256x512.Idx) :
    strip (View.ld S (Rect.unit (s := S256x4096) ![0, o] ![256, 512] inbS))
        (View.ld b (Rect.unit (s := S1x4096) ![0, o] ![1, 512] inbB)) x
      = newStateBlock S b ((Rect.unit (s := S256x4096) ![0, o] ![256, 512] inbS).emb x) := by
  obtain ⟨r, l, rfl⟩ : ∃ (r : Fin 256) (l : Fin 512), x = ix2 r l := ⟨x 0, x 1, eq_ix2 x⟩
  refine (strip_apply _ _ r l).trans ?_
  have e : (Rect.unit (s := S1x4096) ![0, o] ![1, 512] inbB).idx (ix2 (0 : Fin 1) l)
      = ix2 (0 : Fin 1) ((Rect.unit (s := S256x4096) ![0, o] ![256, 512] inbS).emb (ix2 r l) 1) :=
    funext fun a => Fin.ext (by match a with | ⟨0, _⟩ => rfl | ⟨1, _⟩ => rfl)
  show FloatOps.maximumf (FloatOps.addf (S ((Rect.unit (s := S256x4096) ![0, o] ![256, 512] inbS).idx (ix2 r l)))
    (b ((Rect.unit (s := S1x4096) ![0, o] ![1, 512] inbB).idx (ix2 (0 : Fin 1) l)))) _ = _
  rw [e]
  rfl

/-- LAST step, the new state: the eight strips the body stores side by side are the strips of ONE function of the
    buffer's index — the updated accumulator plus the column's bias, clamped at zero. -/
theorem newState_last (c : Dev nD) (i : grid0.Coords) (arg2 : Memref sig .tc .vmem S256x1024 .f32) (harg2 : arg2.IsWhole) (arg3 : Memref sig .tc .vmem S256x128 .f32) (harg3 : arg3.IsWhole) (arg4 : Memref sig .tc .vmem S4096x1024 .bf16) (harg4 : arg4.IsWhole) (arg5 : Memref sig .tc .vmem S1x4096 .f32) (harg5 : arg5.IsWhole) (arg6 : Memref sig .tc .vmem S4096x128 .bf16) (harg6 : arg6.IsWhole) (arg7 : Memref sig .tc .vmem S1024x4096 .bf16) (harg7 : arg7.IsWhole) (arg8 : Memref sig .tc .vmem S1x1024 .f32) (harg8 : arg8.IsWhole) (arg9 : Memref sig .tc .vmem S256x4096 .f32) (harg9 : arg9.IsWhole) (arg10 : Memref sig .tc .vmem S256x1024 .f32) (harg10 : arg10.IsWhole) (arg11 : Memref sig .tc .vmem S256x4096 .f32) (harg11 : arg11.IsWhole) (hc0 : ¬cond0_0 i) (hc1 : cond0_1 i)
    (x0 : Vec F S256x1024 .f32) (x1 : Vec F S256x128 .f32) (x2 : Vec F S4096x1024 .bf16) (x3 : Vec F S1x4096 .f32) (x4 : Vec F S4096x128 .bf16) (x5 : Vec F S1024x4096 .bf16) (x6 : Vec F S1x1024 .f32) (xs0 : Vec F S256x4096 .f32) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 = newStateBlock (k0_pay2 x1 x4 xs0) x3 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0)]
  funext y
  refine View.canon_apply_of_pieces (newStateBlock (k0_pay2 x1 x4 xs0) x3) _ ?_ y (cover0_C_7 c i arg2 harg2 arg3 harg3 arg4 harg4 arg5 harg5 arg6 harg6 arg7 harg7 arg8 harg8 arg9 harg9 arg10 harg10 arg11 harg11 hc0 hc1 x0 x1 x2 x3 x4 x5 x6 xs0 y)
  unfold kernelRun0_C
  dsimp only
  sl_unfold_words
  simp only [readCov_whole (S := S256x4096) _ hz, View.readAt_eq_ld, harg3.read_unread, harg5.read_unread, harg6.read_unread,
    harg11.read_unread, View.ld_unit_zero (S := S256x128) hz, View.ld_unit_zero (S := S4096x128) hz,
    View.ld_unit_zero (S := S256x4096) hz]
  intro p hp
  simp only [List.mem_cons, List.mem_nil_iff, or_false] at hp
  rcases hp with rfl | rfl | rfl | rfl | rfl | rfl | rfl | rfl
  all_goals
    intro x
    exact strip_piece (k0_pay2 x1 x4 xs0) x3 _ _ _ x

/-- One chunk of the output product: a strip of the new state against the same 512 columns of the output weights. -/
def chunkProduct (s : FVec F S256x512 .f32) (w : Vec F S1024x512 .bf16) : FVec F S256x1024 .f32 :=
  matmul dot_S256x512_S1024x512_S256x1024_1_1_0_0_n_n none (truncf .bf16 s bitsLt_bf16_f32)
    (shapeCast S1024x512 w shapeCasts_S1024x512_S1024x512) (constant S256x1024 .f32 0x00000000#32)

/-- The output block: the eight chunk products added one after the other onto a zero block, plus the output bias row,
    clamped below at zero. -/
def outBlock (s0 s1 s2 s3 s4 s5 s6 s7 : FVec F S256x512 .f32) (w0 w1 w2 w3 w4 w5 w6 w7 : Vec F S1024x512 .bf16)
    (b : Vec F S1x1024 .f32) : FVec F S256x1024 .f32 :=
  maximumf (addf (addf (addf (addf (addf (addf (addf (addf (addf (broadcast S256x1024 (Scalar.ofBits .f32 0x00000000#32)) (chunkProduct s0 w0)) (chunkProduct s1 w1)) (chunkProduct s2 w2)) (chunkProduct s3 w3)) (chunkProduct s4 w4)) (chunkProduct s5 w5)) (chunkProduct s6 w6)) (chunkProduct s7 w7))
      (broadcastTo S256x1024 (shapeCast S1x1024 b shapeCasts_S1x1024_S1x1024) broadcasts_S1x1024_S256x1024))
    (broadcast S256x1024 (Scalar.ofBits .f32 0x00000000#32))

/-- LAST step, the output: one covering store of the output block, whose strips are read from the accumulator the
    step has just updated and from the bias row, and whose weights are the eight column chunks of the output weights. -/
theorem out_last (c : Dev nD) (i : grid0.Coords) (arg2 : Memref sig .tc .vmem S256x1024 .f32) (harg2 : arg2.IsWhole) (arg3 : Memref sig .tc .vmem S256x128 .f32) (harg3 : arg3.IsWhole) (arg4 : Memref sig .tc .vmem S4096x1024 .bf16) (harg4 : arg4.IsWhole) (arg5 : Memref sig .tc .vmem S1x4096 .f32) (harg5 : arg5.IsWhole) (arg6 : Memref sig .tc .vmem S4096x128 .bf16) (harg6 : arg6.IsWhole) (arg7 : Memref sig .tc .vmem S1024x4096 .bf16) (harg7 : arg7.IsWhole) (arg8 : Memref sig .tc .vmem S1x1024 .f32) (harg8 : arg8.IsWhole) (arg9 : Memref sig .tc .vmem S256x4096 .f32) (harg9 : arg9.IsWhole) (arg10 : Memref sig .tc .vmem S256x1024 .f32) (harg10 : arg10.IsWhole) (arg11 : Memref sig .tc .vmem S256x4096 .f32) (harg11 : arg11.IsWhole) (hc0 : ¬cond0_0 i) (hc1 : cond0_1 i)
    (x0 : Vec F S256x1024 .f32) (x1 : Vec F S256x128 .f32) (x2 : Vec F S4096x1024 .bf16) (x3 : Vec F S1x4096 .f32) (x4 : Vec F S4096x128 .bf16) (x5 : Vec F S1024x4096 .bf16) (x6 : Vec F S1x1024 .f32) (xs0 : Vec F S256x4096 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 xs0
      = outBlock
          (strip (View.ld (Val := Elt F) (e' := .f32) (k0_pay2 x1 x4 xs0) (Rect.unit (s := S256x4096) ![0, 0] ![256, 512] Facts₀.inb_S256x4096_S256x512_0_0)) (View.ld (Val := Elt F) (e' := .f32) x3 (Rect.unit (s := S1x4096) ![0, 0] ![1, 512] Facts₀.inb_S1x4096_S1x512_0_0)))
          (strip (View.ld (Val := Elt F) (e' := .f32) (k0_pay2 x1 x4 xs0) (Rect.unit (s := S256x4096) ![0, 512] ![256, 512] Facts₀.inb_S256x4096_S256x512_0_512)) (View.ld (Val := Elt F) (e' := .f32) x3 (Rect.unit (s := S1x4096) ![0, 512] ![1, 512] Facts₀.inb_S1x4096_S1x512_0_512)))
          (strip (View.ld (Val := Elt F) (e' := .f32) (k0_pay2 x1 x4 xs0) (Rect.unit (s := S256x4096) ![0, 1024] ![256, 512] Facts₀.inb_S256x4096_S256x512_0_1024)) (View.ld (Val := Elt F) (e' := .f32) x3 (Rect.unit (s := S1x4096) ![0, 1024] ![1, 512] Facts₀.inb_S1x4096_S1x512_0_1024)))
          (strip (View.ld (Val := Elt F) (e' := .f32) (k0_pay2 x1 x4 xs0) (Rect.unit (s := S256x4096) ![0, 1536] ![256, 512] Facts₀.inb_S256x4096_S256x512_0_1536)) (View.ld (Val := Elt F) (e' := .f32) x3 (Rect.unit (s := S1x4096) ![0, 1536] ![1, 512] Facts₀.inb_S1x4096_S1x512_0_1536)))
          (strip (View.ld (Val := Elt F) (e' := .f32) (k0_pay2 x1 x4 xs0) (Rect.unit (s := S256x4096) ![0, 2048] ![256, 512] Facts₀.inb_S256x4096_S256x512_0_2048)) (View.ld (Val := Elt F) (e' := .f32) x3 (Rect.unit (s := S1x4096) ![0, 2048] ![1, 512] Facts₀.inb_S1x4096_S1x512_0_2048)))
          (strip (View.ld (Val := Elt F) (e' := .f32) (k0_pay2 x1 x4 xs0) (Rect.unit (s := S256x4096) ![0, 2560] ![256, 512] Facts₀.inb_S256x4096_S256x512_0_2560)) (View.ld (Val := Elt F) (e' := .f32) x3 (Rect.unit (s := S1x4096) ![0, 2560] ![1, 512] Facts₀.inb_S1x4096_S1x512_0_2560)))
          (strip (View.ld (Val := Elt F) (e' := .f32) (k0_pay2 x1 x4 xs0) (Rect.unit (s := S256x4096) ![0, 3072] ![256, 512] Facts₀.inb_S256x4096_S256x512_0_3072)) (View.ld (Val := Elt F) (e' := .f32) x3 (Rect.unit (s := S1x4096) ![0, 3072] ![1, 512] Facts₀.inb_S1x4096_S1x512_0_3072)))
          (strip (View.ld (Val := Elt F) (e' := .f32) (k0_pay2 x1 x4 xs0) (Rect.unit (s := S256x4096) ![0, 3584] ![256, 512] Facts₀.inb_S256x4096_S256x512_0_3584)) (View.ld (Val := Elt F) (e' := .f32) x3 (Rect.unit (s := S1x4096) ![0, 3584] ![1, 512] Facts₀.inb_S1x4096_S1x512_0_3584)))
          (View.ld (Val := Elt F) (e' := .bf16) x5 (Rect.unit (s := S1024x4096) ![0, 0] ![1024, 512] Facts₀.inb_S1024x4096_S1024x512_0_0))
          (View.ld (Val := Elt F) (e' := .bf16) x5 (Rect.unit (s := S1024x4096) ![0, 512] ![1024, 512] Facts₀.inb_S1024x4096_S1024x512_0_512))
          (View.ld (Val := Elt F) (e' := .bf16) x5 (Rect.unit (s := S1024x4096) ![0, 1024] ![1024, 512] Facts₀.inb_S1024x4096_S1024x512_0_1024))
          (View.ld (Val := Elt F) (e' := .bf16) x5 (Rect.unit (s := S1024x4096) ![0, 1536] ![1024, 512] Facts₀.inb_S1024x4096_S1024x512_0_1536))
          (View.ld (Val := Elt F) (e' := .bf16) x5 (Rect.unit (s := S1024x4096) ![0, 2048] ![1024, 512] Facts₀.inb_S1024x4096_S1024x512_0_2048))
          (View.ld (Val := Elt F) (e' := .bf16) x5 (Rect.unit (s := S1024x4096) ![0, 2560] ![1024, 512] Facts₀.inb_S1024x4096_S1024x512_0_2560))
          (View.ld (Val := Elt F) (e' := .bf16) x5 (Rect.unit (s := S1024x4096) ![0, 3072] ![1024, 512] Facts₀.inb_S1024x4096_S1024x512_0_3072))
          (View.ld (Val := Elt F) (e' := .bf16) x5 (Rect.unit (s := S1024x4096) ![0, 3584] ![1024, 512] Facts₀.inb_S1024x4096_S1024x512_0_3584))
          x6 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [readCov_whole (S := S256x4096) _ hz, View.readAt_eq_ld, harg3.read_unread, harg5.read_unread, harg6.read_unread,
    harg7.read_unread, harg8.read_unread, harg11.read_unread, View.ld_unit_zero (S := S256x128) hz,
    View.ld_unit_zero (S := S4096x128) hz, View.ld_unit_zero (S := S256x4096) hz, View.ld_unit_zero (S := S1x1024) hz]
  rfl

end Cert.KernelIdeal.Pieces

end
-- ==== Proof.MatmulIdx.lean ====
/-
  The kernel's three matrix products, read at an entry.

  Each contracts the LAST axis of both factors into a zero accumulator: at row `p` of the left factor and row `q` of
  the right one the entry is `Σ_k lhs(p,k) · rhs(q,k)` on the extended reals — the accumulator's zero contributes nothing
  and no order of summation is left in the sum.
-/
import proofs.«174748_j50105088475253_2_alg».proof.Proof.Gen.KernelIdeal
import Idealize.ShloMosaic.Lib.ValueIdx
import Idealize.ShloMosaic.PureOps.Ideal.Laws

noncomputable section

namespace Cert.KernelIdeal.MatmulIdx

open Cert.KernelIdeal Idealize.ShloMosaic Idealize.ShloMosaic.ValueIdx

theorem matmul_input_lhs0 (i : S256x4096.Idx) (q : dot_S256x1024_S4096x1024_S256x4096_1_1_0_0_n_n.contr.Idx) : (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide),
    dif_pos (show (0 : Fin S256x1024.rank) ∈ dot_S256x1024_S4096x1024_S256x4096_1_1_0_0_n_n.lhsNonContracting by decide)]
  rfl
theorem matmul_input_lhs1 (i : S256x4096.Idx) (q : dot_S256x1024_S4096x1024_S256x4096_1_1_0_0_n_n.contr.Idx) : (dot_S256x1024_S4096x1024_S256x4096_1_1_0_0_n_n.lhsIdx i q 1).val = (q ⟨0, by decide⟩).val :=
  dot_S256x1024_S4096x1024_S256x4096_1_1_0_0_n_n.lhsIdx_val_of_single rfl i q
theorem matmul_input_rhs0 (i : S256x4096.Idx) (q : dot_S256x1024_S4096x1024_S256x4096_1_1_0_0_n_n.contr.Idx) : (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide),
    dif_pos (show (0 : Fin S4096x1024.rank) ∈ dot_S256x1024_S4096x1024_S256x4096_1_1_0_0_n_n.rhsNonContracting by decide)]
  rfl
theorem matmul_input_rhs1 (i : S256x4096.Idx) (q : dot_S256x1024_S4096x1024_S256x4096_1_1_0_0_n_n.contr.Idx) : (dot_S256x1024_S4096x1024_S256x4096_1_1_0_0_n_n.rhsIdx i q 1).val = (q ⟨0, by decide⟩).val :=
  dot_S256x1024_S4096x1024_S256x4096_1_1_0_0_n_n.rhsIdx_val_of_single rfl i q

/-- The input product of one row tile: 256 rows of `X` against all 4096 rows of `W_in`, over the 1024 inputs. -/
theorem matmul_input (lhs : FVec Ideal S256x1024 .bf16) (rhs : FVec Ideal S4096x1024 .bf16) (p : Fin 256) (q : Fin 4096) :
    matmul dot_S256x1024_S4096x1024_S256x4096_1_1_0_0_n_n none lhs rhs (constant (F := Ideal) S256x4096 .f32 0x00000000#32) (ix2 p q)
      = ∑ k : Fin 1024, lhs (ix2 p k) * rhs (ix2 q k) := by
  simp only [matmul]
  rw [Ideal.matmul_constant_zero_apply, ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p q) ((contrEquiv1 dot_S256x1024_S4096x1024_S256x4096_1_1_0_0_n_n 1024 rfl rfl).symm k) = ix2 p k :=
    funext fun a => Fin.ext (by
      match a with
      | ⟨0, _⟩ => exact matmul_input_lhs0 _ _
      | ⟨1, _⟩ => exact (matmul_input_lhs1 _ _).trans hk)
  have er : dot_S256x1024_S4096x1024_S256x4096_1_1_0_0_n_n.rhsIdx (ix2 p q) ((contrEquiv1 dot_S256x1024_S4096x1024_S256x4096_1_1_0_0_n_n 1024 rfl rfl).symm k) = ix2 q k :=
    funext fun a => Fin.ext (by
      match a with
      | ⟨0, _⟩ => exact matmul_input_rhs0 _ _
      | ⟨1, _⟩ => exact (matmul_input_rhs1 _ _).trans hk)
  rw [el, er]

theorem matmul_recurrent_lhs0 (i : S256x4096.Idx) (q : dot_S256x128_S4096x128_S256x4096_1_1_0_0_n_n.contr.Idx) : (dot_S256x128_S4096x128_S256x4096_1_1_0_0_n_n.lhsIdx i q 0).val = (i 0).val := by
  unfold DotDims.lhsIdx
  rw [dif_neg (show ¬(0 : Fin S256x128.rank) ∈ dot_S256x128_S4096x128_S256x4096_1_1_0_0_n_n.lhsBatch by decide),
    dif_pos (show (0 : Fin S256x128.rank) ∈ dot_S256x128_S4096x128_S256x4096_1_1_0_0_n_n.lhsNonContracting by decide)]
  rfl
theorem matmul_recurrent_lhs1 (i : S256x4096.Idx) (q : dot_S256x128_S4096x128_S256x4096_1_1_0_0_n_n.contr.Idx) : (dot_S256x128_S4096x128_S256x4096_1_1_0_0_n_n.lhsIdx i q 1).val = (q ⟨0, by decide⟩).val :=
  dot_S256x128_S4096x128_S256x4096_1_1_0_0_n_n.lhsIdx_val_of_single rfl i q
theorem matmul_recurrent_rhs0 (i : S256x4096.Idx) (q : dot_S256x128_S4096x128_S256x4096_1_1_0_0_n_n.contr.Idx) : (dot_S256x128_S4096x128_S256x4096_1_1_0_0_n_n.rhsIdx i q 0).val = (i 1).val := by
  unfold DotDims.rhsIdx
  rw [dif_neg (show ¬(0 : Fin S4096x128.rank) ∈ dot_S256x128_S4096x128_S256x4096_1_1_0_0_n_n.rhsBatch by decide),
    dif_pos (show (0 : Fin S4096x128.rank) ∈ dot_S256x128_S4096x128_S256x4096_1_1_0_0_n_n.rhsNonContracting by decide)]
  rfl
theorem matmul_recurrent_rhs1 (i : S256x4096.Idx) (q : dot_S256x128_S4096x128_S256x4096_1_1_0_0_n_n.contr.Idx) : (dot_S256x128_S4096x128_S256x4096_1_1_0_0_n_n.rhsIdx i q 1).val = (q ⟨0, by decide⟩).val :=
  dot_S256x128_S4096x128_S256x4096_1_1_0_0_n_n.rhsIdx_val_of_single rfl i q

/-- One tile of the recurrent product: 128 columns of the state tile against the same 128 columns of `W_rec`. -/
theorem matmul_recurrent (lhs : FVec Ideal S256x128 .bf16) (rhs : FVec Ideal S4096x128 .bf16) (p : Fin 256) (q : Fin 4096) :
    matmul dot_S256x128_S4096x128_S256x4096_1_1_0_0_n_n none lhs rhs (constant (F := Ideal) S256x4096 .f32 0x00000000#32) (ix2 p q)
      = ∑ k : Fin 128, lhs (ix2 p k) * rhs (ix2 q k) := by
  simp only [matmul]
  rw [Ideal.matmul_constant_zero_apply, ← Equiv.sum_comp (contrEquiv1 dot_S256x128_S4096x128_S256x4096_1_1_0_0_n_n 128 rfl rfl).symm]
  refine Finset.sum_congr rfl fun k _ => ?_
  have hk := contrEquiv1_symm_val dot_S256x128_S4096x128_S256x4096_1_1_0_0_n_n 128 rfl rfl k
  have el : dot_S256x128_S4096x128_S256x4096_1_1_0_0_n_n.lhsIdx (ix2 p q) ((contrEquiv1 dot_S256x128_S4096x128_S256x4096_1_1_0_0_n_n 128 rfl rfl).symm k) = ix2 p k :=
    funext fun a => Fin.ext (by
      match a with
      | ⟨0, _⟩ => exact matmul_recurrent_lhs0 _ _
      | ⟨1, _⟩ => exact (matmul_recurrent_lhs1 _ _).trans hk)
  have er : dot_S256x128_S4096x128_S256x4096_1_1_0_0_n_n.rhsIdx (ix2 p q) ((contrEquiv1 dot_S256x128_S4096x128_S256x4096_1_1_0_0_n_n 128 rfl rfl).symm k) = ix2 q k :=
    funext fun a => Fin.ext (by
      match a with
      | ⟨0, _⟩ => exact matmul_recurrent_rhs0 _ _
      | ⟨1, _⟩ => exact (matmul_recurrent_rhs1 _ _).trans hk)
  rw [el, er]

theorem matmul_output_lhs0 (i : S256x1024.Idx) (q : dot_S256x512_S1024x512_S256x1024_1_1_0_0_n_n.contr.Idx) : (dot_S256x512_S1024x512_S256x1024_1_1_0_0_n_n.lhsIdx i q 0).val = (i 0).val := by
  unfold DotDims.lhsIdx
  rw [dif_neg (show ¬(0 : Fin S256x512.rank) ∈ dot_S256x512_S1024x512_S256x1024_1_1_0_0_n_n.lhsBatch by decide),
    dif_pos (show (0 : Fin S256x512.rank) ∈ dot_S256x512_S1024x512_S256x1024_1_1_0_0_n_n.lhsNonContracting by decide)]
  rfl
theorem matmul_output_lhs1 (i : S256x1024.Idx) (q : dot_S256x512_S1024x512_S256x1024_1_1_0_0_n_n.contr.Idx) : (dot_S256x512_S1024x512_S256x1024_1_1_0_0_n_n.lhsIdx i q 1).val = (q ⟨0, by decide⟩).val :=
  dot_S256x512_S1024x512_S256x1024_1_1_0_0_n_n.lhsIdx_val_of_single rfl i q
theorem matmul_output_rhs0 (i : S256x1024.Idx) (q : dot_S256x512_S1024x512_S256x1024_1_1_0_0_n_n.contr.Idx) : (dot_S256x512_S1024x512_S256x1024_1_1_0_0_n_n.rhsIdx i q 0).val = (i 1).val := by
  unfold DotDims.rhsIdx
  rw [dif_neg (show ¬(0 : Fin S1024x512.rank) ∈ dot_S256x512_S1024x512_S256x1024_1_1_0_0_n_n.rhsBatch by decide),
    dif_pos (show (0 : Fin S1024x512.rank) ∈ dot_S256x512_S1024x512_S256x1024_1_1_0_0_n_n.rhsNonContracting by decide)]
  rfl
theorem matmul_output_rhs1 (i : S256x1024.Idx) (q : dot_S256x512_S1024x512_S256x1024_1_1_0_0_n_n.contr.Idx) : (dot_S256x512_S1024x512_S256x1024_1_1_0_0_n_n.rhsIdx i q 1).val = (q ⟨0, by decide⟩).val :=
  dot_S256x512_S1024x512_S256x1024_1_1_0_0_n_n.rhsIdx_val_of_single rfl i q

/-- One chunk of the output product: 512 hidden units of the new state against the same 512 columns of `W_out`. -/
theorem matmul_output (lhs : FVec Ideal S256x512 .bf16) (rhs : FVec Ideal S1024x512 .bf16) (p : Fin 256) (q : Fin 1024) :
    matmul dot_S256x512_S1024x512_S256x1024_1_1_0_0_n_n none lhs rhs (constant (F := Ideal) S256x1024 .f32 0x00000000#32) (ix2 p q)
      = ∑ k : Fin 512, lhs (ix2 p k) * rhs (ix2 q k) := by
  simp only [matmul]
  rw [Ideal.matmul_constant_zero_apply, ← Equiv.sum_comp (contrEquiv1 dot_S256x512_S1024x512_S256x1024_1_1_0_0_n_n 512 rfl rfl).symm]
  refine Finset.sum_congr rfl fun k _ => ?_
  have hk := contrEquiv1_symm_val dot_S256x512_S1024x512_S256x1024_1_1_0_0_n_n 512 rfl rfl k
  have el : dot_S256x512_S1024x512_S256x1024_1_1_0_0_n_n.lhsIdx (ix2 p q) ((contrEquiv1 dot_S256x512_S1024x512_S256x1024_1_1_0_0_n_n 512 rfl rfl).symm k) = ix2 p k :=
    funext fun a => Fin.ext (by
      match a with
      | ⟨0, _⟩ => exact matmul_output_lhs0 _ _
      | ⟨1, _⟩ => exact (matmul_output_lhs1 _ _).trans hk)
  have er : dot_S256x512_S1024x512_S256x1024_1_1_0_0_n_n.rhsIdx (ix2 p q) ((contrEquiv1 dot_S256x512_S1024x512_S256x1024_1_1_0_0_n_n 512 rfl rfl).symm k) = ix2 q k :=
    funext fun a => Fin.ext (by
      match a with
      | ⟨0, _⟩ => exact matmul_output_rhs0 _ _
      | ⟨1, _⟩ => exact (matmul_output_rhs1 _ _).trans hk)
  rw [el, er]

end Cert.KernelIdeal.MatmulIdx

end
-- ==== Proof.PayloadIdx.lean ====
/-
  The body's arithmetic read at an entry, on the extended reals.

  A change of float format is the identity there, and a cast to the same shape changes nothing, so:
    * the input product of a row tile at (r, h) is  Σ_d x(r,d) · w_in(h,d);
    * one accumulation step adds  Σ_l s(r,l) · w_rec(h,l)  (the step's 128 columns) to the accumulator's entry;
    * a strip of the new state at (r, l) is  max(acc(r,l) + bias(0,l), 0);
    * the output block at (r, o) is  max(((0 + C₀) + … + C₇) + b_out(0,o), 0)  with  C_j = Σ_l strip_j(r,l) · w_out(o, l)
      over chunk j's 512 hidden units.
-/
import proofs.«174748_j50105088475253_2_alg».proof.Proof.Gen.KernelIdeal.Skeleton
import proofs.«174748_j50105088475253_2_alg».proof.Proof.MatmulIdx
import proofs.«174748_j50105088475253_2_alg».proof.Proof.Pieces
import proofs.«174748_j50105088475253_2_alg».proof.Proof.Spec
import Idealize.ShloMosaic.Lib.Pipeline.Value
import Idealize.ShloMosaic.Lib.ValueLayout

noncomputable section

namespace Cert.KernelIdeal.PayloadIdx

open Cert.KernelIdeal Cert.KernelIdeal.Gen Cert.KernelIdeal.MatmulIdx Idealize.ShloMosaic Idealize.ShloMosaic.ValueIdx

/-- The input product of a row tile, at an entry. -/
theorem inputProduct_apply (x0 : FVec Ideal S256x1024 .f32) (x2 : FVec Ideal S4096x1024 .bf16) (r : Fin 256) (h : Fin 4096) :
    k0_pay1 (F := Ideal) x0 x2 (ix2 r h) = ∑ d : Fin 1024, x0 (ix2 r d) * x2 (ix2 h d) := by
  unfold k0_pay1
  simp only [shapeCast_self]
  exact matmul_input (truncf .bf16 x0 bitsLt_bf16_f32) x2 r h

/-- One accumulation step, at an entry: the step's recurrent tile is added to the accumulator. -/
theorem accumulate_apply (x1 : FVec Ideal S256x128 .f32) (x4 : FVec Ideal S4096x128 .bf16) (acc : FVec Ideal S256x4096 .f32)
    (r : Fin 256) (h : Fin 4096) :
    k0_pay2 (F := Ideal) x1 x4 acc (ix2 r h) = acc (ix2 r h) + ∑ l : Fin 128, x1 (ix2 r l) * x4 (ix2 h l) := by
  unfold k0_pay2
  simp only [shapeCast_self]
  exact congrArg (acc (ix2 r h) + ·) (matmul_recurrent (truncf .bf16 x1 bitsLt_bf16_f32) x4 r h)

/-- A strip of the new state at an entry: accumulator plus the column's bias, clamped below at zero. -/
theorem strip_apply (a : FVec Ideal S256x512 .f32) (b : FVec Ideal S1x512 .f32) (r : Fin 256) (l : Fin 512) :
    Pieces.strip (F := Ideal) a b (ix2 r l) = max (a (ix2 r l) + b (ix2 (0 : Fin 1) l)) Cert.Spec.zeroWord :=
  Pieces.strip_apply (F := Ideal) a b r l

/-- A chunk product at an entry: the strip's row against the weights' row, over the chunk's 512 hidden units. -/
theorem chunkProduct_apply (s : FVec Ideal S256x512 .f32) (w : FVec Ideal S1024x512 .bf16) (r : Fin 256) (o : Fin 1024) :
    Pieces.chunkProduct (F := Ideal) s w (ix2 r o) = ∑ l : Fin 512, s (ix2 r l) * w (ix2 o l) := by
  unfold Pieces.chunkProduct
  simp only [shapeCast_self]
  exact matmul_output (truncf .bf16 s bitsLt_bf16_f32) w r o

/-- The output block at an entry: the eight chunk products added in order onto zero, plus the output bias, clamped. -/
theorem outBlock_apply (s0 s1 s2 s3 s4 s5 s6 s7 : FVec Ideal S256x512 .f32) (w0 w1 w2 w3 w4 w5 w6 w7 : FVec Ideal S1024x512 .bf16)
    (b : FVec Ideal S1x1024 .f32) (r : Fin 256) (o : Fin 1024) :
    Pieces.outBlock (F := Ideal) s0 s1 s2 s3 s4 s5 s6 s7 w0 w1 w2 w3 w4 w5 w6 w7 b (ix2 r o)
      = max (((((((((Cert.Spec.zeroWord + ∑ l : Fin 512, s0 (ix2 r l) * w0 (ix2 o l)) + ∑ l : Fin 512, s1 (ix2 r l) * w1 (ix2 o l)) + ∑ l : Fin 512, s2 (ix2 r l) * w2 (ix2 o l)) + ∑ l : Fin 512, s3 (ix2 r l) * w3 (ix2 o l)) + ∑ l : Fin 512, s4 (ix2 r l) * w4 (ix2 o l)) + ∑ l : Fin 512, s5 (ix2 r l) * w5 (ix2 o l)) + ∑ l : Fin 512, s6 (ix2 r l) * w6 (ix2 o l)) + ∑ l : Fin 512, s7 (ix2 r l) * w7 (ix2 o l)) + b (ix2 (0 : Fin 1) o)) Cert.Spec.zeroWord := by
  unfold Pieces.outBlock
  simp only [maximumf_apply, addf_apply, chunkProduct_apply, shapeCast_self, broadcastTo_1b_ab_apply]
  rfl

end Cert.KernelIdeal.PayloadIdx

end
-- ==== Proof.Tiling.lean ====
/-
  Sums cut into tiles, and the specification in tiled form.

  The kernel never sees a whole contraction axis: the recurrent product is accumulated over 32 tiles of 128 columns,
  one per step along the second grid axis, and the output product over 8 chunks of 512 hidden units. A sum over
  `Fin (a * b)` is the sum over the `a` tiles of the sums inside each tile; on the extended reals this needs only that
  addition is commutative and associative, so it holds at the infinities too.

  Array entries are read here at NATURAL-number coordinates (`at1`, `at2`: the entry when the coordinates are in
  range, zero otherwise), so that a tile's coordinate `128 * s + l` is an ordinary number with no bound proof inside it.
-/
import proofs.«174748_j50105088475253_2_alg».proof.Proof.Spec

noncomputable section

namespace Cert.Tiling

open Idealize.ShloMosaic Idealize.ShloMosaic.ValueIdx

/-- A vector's entry at a natural-number coordinate (zero outside the vector). -/
def at1 {n : Nat} (x : (⟨1, ![n]⟩ : Shape).Idx → EReal) (a : Nat) : EReal :=
  if h : a < n then x (ix1 ⟨a, h⟩) else 0

/-- A matrix's entry at natural-number coordinates (zero outside the matrix). -/
def at2 {n0 n1 : Nat} (x : (⟨2, ![n0, n1]⟩ : Shape).Idx → EReal) (a b : Nat) : EReal :=
  if h : a < n0 ∧ b < n1 then x (ix2 ⟨a, h.1⟩ ⟨b, h.2⟩) else 0

theorem at1_val {n : Nat} (x : (⟨1, ![n]⟩ : Shape).Idx → EReal) (a : Fin n) : at1 x a.val = x (ix1 a) := by
  unfold at1; rw [dif_pos a.isLt]

theorem at2_val {n0 n1 : Nat} (x : (⟨2, ![n0, n1]⟩ : Shape).Idx → EReal) (a : Fin n0) (b : Fin n1) :
    at2 x a.val b.val = x (ix2 a b) := by
  unfold at2; rw [dif_pos ⟨a.isLt, b.isLt⟩]

/-- Any entry of a matrix is its entry at the natural numbers its two coordinates are. -/
theorem at2_idx {n0 n1 : Nat} (x : (⟨2, ![n0, n1]⟩ : Shape).Idx → EReal) (i : (⟨2, ![n0, n1]⟩ : Shape).Idx) :
    x i = at2 x (i 0).val (i 1).val := by
  obtain ⟨a, b, rfl⟩ : ∃ (a : Fin n0) (b : Fin n1), i = ix2 a b := ⟨i 0, i 1, eq_ix2 i⟩
  exact (at2_val x a b).symm

/-- Any entry of a vector is its entry at the natural number its coordinate is. -/
theorem at1_idx {n : Nat} (x : (⟨1, ![n]⟩ : Shape).Idx → EReal) (i : (⟨1, ![n]⟩ : Shape).Idx) :
    x i = at1 x (i 0).val := by
  obtain ⟨a, rfl⟩ : ∃ a : Fin n, i = ix1 a := ⟨i 0, eq_ix1 i⟩
  exact (at1_val x a).symm

/-- A sum over `a * b` consecutive numbers is the sum over `a` tiles of the sums over each tile's `b` numbers. -/
theorem sum_tiles {β : Type*} [AddCommMonoid β] (a b : Nat) (g : Nat → β) :
    ∑ j : Fin (a * b), g j.val = ∑ s ∈ Finset.range a, ∑ l : Fin b, g (b * s + l.val) := by
  rw [Fin.sum_univ_eq_sum_range g (a * b)]
  induction a with
  | zero => simp
  | succ a ih =>
    rw [Nat.succ_mul, Finset.sum_range_add, ih, Finset.sum_range_succ,
      Fin.sum_univ_eq_sum_range (fun l => g (b * a + l)) b]
    simp only [Nat.mul_comm]

/-- The recurrent contraction, 4096 terms, as 32 tiles of 128. -/
theorem sum_4096_tiles (g : Nat → EReal) :
    ∑ j : Fin 4096, g j.val = ∑ s ∈ Finset.range 32, ∑ l : Fin 128, g (128 * s + l.val) :=
  sum_tiles 32 128 g

/-- The output contraction, 4096 terms, as the chain of 8 chunks of 512 added in order onto zero. -/
theorem sum_4096_chunks (g : Nat → EReal) :
    ∑ j : Fin 4096, g j.val
      = (((((((((0 : EReal) + ∑ l : Fin 512, g l.val) + ∑ l : Fin 512, g (512 + l.val)) + ∑ l : Fin 512, g (1024 + l.val)) + ∑ l : Fin 512, g (1536 + l.val)) + ∑ l : Fin 512, g (2048 + l.val)) + ∑ l : Fin 512, g (2560 + l.val)) + ∑ l : Fin 512, g (3072 + l.val)) + ∑ l : Fin 512, g (3584 + l.val)) := by
  rw [show (4096 : Nat) = 8 * 512 from rfl, sum_tiles 8 512 g]
  simp only [Finset.sum_range_succ, Finset.sum_range_zero, Nat.mul_zero, Nat.zero_add, Nat.mul_one, Nat.reduceMul]

/-- The pre-activation with both contractions read at natural-number coordinates and the recurrent one cut into the
    32 tiles of 128 columns the kernel accumulates. -/
theorem pre_tiled (X : FVec Ideal ⟨2, ![8192, 1024]⟩ .f32) (St : FVec Ideal ⟨2, ![8192, 4096]⟩ .f32)
    (Win : FVec Ideal ⟨2, ![4096, 1024]⟩ .f32) (bin : FVec Ideal ⟨1, ![4096]⟩ .f32)
    (Wrec : FVec Ideal ⟨2, ![4096, 4096]⟩ .f32) (brec : FVec Ideal ⟨1, ![4096]⟩ .f32)
    (r : Fin 8192) (h : Fin 4096) :
    Cert.Spec.pre X St Win bin Wrec brec r h
      = ((∑ d : Fin 1024, at2 X r.val d.val * at2 Win h.val d.val)
          + ∑ s ∈ Finset.range 32, ∑ l : Fin 128, at2 St r.val (128 * s + l.val) * at2 Wrec h.val (128 * s + l.val))
        + (at1 bin h.val + at1 brec h.val) := by
  unfold Cert.Spec.pre
  rw [← sum_4096_tiles (fun j => at2 St r.val j * at2 Wrec h.val j), at1_val, at1_val]
  simp only [at2_val]

/-- The output's contraction read at natural-number coordinates and cut into the 8 chunks of 512 hidden units the
    kernel adds one after the other onto a zero accumulator. -/
theorem out_tiled (ns : FVec Ideal ⟨2, ![8192, 4096]⟩ .f32) (Wout : FVec Ideal ⟨2, ![1024, 4096]⟩ .f32)
    (bout : FVec Ideal ⟨1, ![1024]⟩ .f32) (r : Fin 8192) (o : Fin 1024) :
    Cert.Spec.out ns Wout bout (ix2 r o)
      = max ((((((((((0 : EReal)
          + ∑ l : Fin 512, at2 ns r.val l.val * at2 Wout o.val l.val)
          + ∑ l : Fin 512, at2 ns r.val (512 + l.val) * at2 Wout o.val (512 + l.val))
          + ∑ l : Fin 512, at2 ns r.val (1024 + l.val) * at2 Wout o.val (1024 + l.val))
          + ∑ l : Fin 512, at2 ns r.val (1536 + l.val) * at2 Wout o.val (1536 + l.val))
          + ∑ l : Fin 512, at2 ns r.val (2048 + l.val) * at2 Wout o.val (2048 + l.val))
          + ∑ l : Fin 512, at2 ns r.val (2560 + l.val) * at2 Wout o.val (2560 + l.val))
          + ∑ l : Fin 512, at2 ns r.val (3072 + l.val) * at2 Wout o.val (3072 + l.val))
          + ∑ l : Fin 512, at2 ns r.val (3584 + l.val) * at2 Wout o.val (3584 + l.val))
          + at1 bout o.val) Cert.Spec.zeroWord := by
  rw [Cert.Spec.out_apply, ← sum_4096_chunks (fun j => at2 ns r.val j * at2 Wout o.val j), at1_val]
  simp only [at2_val]

/-- An entry at natural-number coordinates that are in range is the entry at those coordinates. -/
theorem at2_lt {n0 n1 : Nat} (x : (⟨2, ![n0, n1]⟩ : Shape).Idx → EReal) (a b : Nat) (ha : a < n0) (hb : b < n1) :
    at2 x a b = x (ix2 ⟨a, ha⟩ ⟨b, hb⟩) := by
  unfold at2; rw [dif_pos ⟨ha, hb⟩]

end Cert.Tiling

end
-- ==== Proof.Blocks.lean ====
/-
  What each input block holds.

  The grid has 32 × 32 points; point t has row tile t / 32 and column tile t % 32. At every point the body sees one
  block of each of seven arrays. This module says, entry by entry, which entry of which ARGUMENT array that is, with
  the argument's coordinates written as natural numbers:

    X        block [256, 1024]   rows 256·(t/32) + r,            all columns d
    state    block [256, 128]    rows 256·(t/32) + r,            columns 128·(t%32) + l
    W_in     whole [4096, 1024]  entry (h, d)
    bias     whole [1, 4096]     column h holds b_in(h) + b_rec(h)
    W_rec    block [4096, 128]   all rows h,                     columns 128·(t%32) + l
    W_out    whole [1024, 4096]  entry (o, h)
    b_out    whole [1, 1024]     column o holds b_out(o)

  A block's coordinate along an axis is always (block index) × (block extent) + (coordinate inside the block); the
  block indices are the printed index maps, evaluated once over the 1024 grid points. The three weight arrays reach
  the grid through a change of float format, which on the extended reals is the identity; the hidden bias reaches it
  as the entrywise sum of the two bias vectors laid out as one row, and the output bias as its vector laid out as one
  row: the entry in column h of such a row is entry h of the vector.
-/
import proofs.«174748_j50105088475253_2_alg».proof.Proof.Tiling
import proofs.«174748_j50105088475253_2_alg».proof.Proof.Gen.KernelIdeal.Frame
import Idealize.ShloMosaic.Lib.Pipeline.Value
import Idealize.ShloMosaic.Lib.StableHlo.Run
import Idealize.ShloMosaic.Lib.ValueLayout

noncomputable section

namespace Cert.KernelIdeal.Blocks

open Cert.KernelIdeal Cert.KernelIdeal.Gen Cert.Tiling Idealize.ShloMosaic Idealize.ShloMosaic.TcCoe Idealize.ShloMosaic.ValueIdx Idealize.SL.Sem

variable (m : (ℓ : Loc nD τ sig) → Buf (Elt Ideal) ℓ)

/-! ## Entries at natural-number coordinates -/

/-- A matrix entry whose two coordinates are known as numbers is the entry at those numbers. -/
theorem at2_of {n0 n1 : Nat} (x : (⟨2, ![n0, n1]⟩ : Shape).Idx → EReal) (i : (⟨2, ![n0, n1]⟩ : Shape).Idx) (a b : Nat)
    (ha : (i 0).val = a) (hb : (i 1).val = b) : x i = at2 x a b := by rw [at2_idx x i, ha, hb]

/-- A vector reshaped to one row: the entry in column `h` of the row is the vector's entry `h`. -/
theorem row_of {n : Nat} (b : (⟨1, ![n]⟩ : Shape).Idx → EReal) (hc : (⟨1, ![n]⟩ : Shape).ShapeCasts ⟨2, ![1, n]⟩)
    (i : (⟨2, ![1, n]⟩ : Shape).Idx) (h : Nat) (hi : (i 1).val = h) :
    shapeCast ⟨2, ![1, n]⟩ b hc i = at1 b h := by
  obtain ⟨u, k, rfl⟩ : ∃ (u : Fin 1) (k : Fin n), i = ix2 u k := ⟨i 0, i 1, eq_ix2 i⟩
  rw [shapeCast_a_1a_apply, ← at1_val b k]
  exact congrArg (at1 b) hi

/-- The same for the entrywise sum of two vectors: column `h` of the row is the sum of the two entries `h`. -/
theorem row_of_sum {n : Nat} (b b' : FVec Ideal ⟨1, ![n]⟩ .f32) (hc : (⟨1, ![n]⟩ : Shape).ShapeCasts ⟨2, ![1, n]⟩)
    (i : (⟨2, ![1, n]⟩ : Shape).Idx) (h : Nat) (hi : (i 1).val = h) :
    shapeCast ⟨2, ![1, n]⟩ (addf b b') hc i = at1 b h + at1 b' h := by
  obtain ⟨u, k, rfl⟩ : ∃ (u : Fin 1) (k : Fin n), i = ix2 u k := ⟨i 0, i 1, eq_ix2 i⟩
  rw [shapeCast_a_1a_apply]
  show b (ix1 k) + b' (ix1 k) = _
  rw [← at1_val b k, ← at1_val b' k]
  exact congrArg (fun a => at1 b a + at1 b' a) hi

/-! ## Which block each grid point reads -/

theorem idx_facts : ∀ t : Fin cfg0.N,
    win0_0.index t (0 : Fin 2) = t.val / 32 ∧ win0_0.index t (1 : Fin 2) = 0
    ∧ win0_1.index t (0 : Fin 2) = t.val / 32 ∧ win0_1.index t (1 : Fin 2) = t.val % 32
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val % 32
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The arrays the host prepared before the grid -/

/-- The input weights are handed over entry for entry (the change of float format is the identity on the extended reals). -/
theorem V_Win (c : Dev nD) : (V m c main_v0 : S4096x1024.Idx → EReal) = m ((c : Thread nD τ).loc main_arg2) := by
  dsimp only [Gen.V, Gen.hostOps0]
  after_results
  rfl

/-- The recurrent weights are handed over entry for entry. -/
theorem V_Wrec (c : Dev nD) : (V m c main_v1 : S4096x4096.Idx → EReal) = m ((c : Thread nD τ).loc main_arg4) := by
  dsimp only [Gen.V, Gen.hostOps0]
  after_results
  rfl

/-- The output weights are handed over entry for entry. -/
theorem V_Wout (c : Dev nD) : (V m c main_v2 : S1024x4096.Idx → EReal) = m ((c : Thread nD τ).loc main_arg6) := by
  dsimp only [Gen.V, Gen.hostOps0]
  after_results
  rfl

/-- The two hidden biases are added entry by entry and the sum is laid out as one row. -/
theorem V_bias (c : Dev nD) : (V m c main_v4 : S1x4096.Idx → EReal)
    = (shapeCast S1x4096 (addf (F := Ideal) (s := S4096) (φ := .f32) (m ((c : Thread nD τ).loc main_arg3))
        (m ((c : Thread nD τ).loc main_arg5))) shapeCasts_S4096_S1x4096 : S1x4096.Idx → EReal) := by
  dsimp only [Gen.V, Gen.hostOps0]
  after_results
  rfl

/-- The output bias is laid out as one row. -/
theorem V_bout (c : Dev nD) : (V m c main_v5 : S1x1024.Idx → EReal)
    = shapeCast S1x1024 (m ((c : Thread nD τ).loc main_arg7) : FVec Ideal S1024 .f32) shapeCasts_S1024_S1x1024 := by
  dsimp only [Gen.V, Gen.hostOps0]
  after_results
  rfl

/-! ## The seven input blocks -/

/-- The block of X at a grid point: rows 256·(t/32) … +255, all 1024 columns. -/
theorem blk_X (c : Dev nD) (t : Fin cfg0.N) (r : Fin 256) (d : Fin 1024) :
    iblk m c 0 t (ix2 r d) = at2 (m ((c : Thread nD τ).loc main_arg0)) (256 * (t.val / 32) + r.val) d.val := by
  obtain ⟨e0, e1, -⟩ := idx_facts t
  unfold iblk
  rw [View.read_apply]
  show V m c main_arg0 _ = _
  rw [V_main_arg0]
  refine at2_of _ _ _ _ ?_ ?_
  · show win0_0.index t 0 * 256 + 1 * r.val = _
    rw [e0]; omega
  · show win0_0.index t 1 * 1024 + 1 * d.val = _
    rw [e1]; omega

/-- The block of the state: rows 256·(t/32) … +255, columns 128·(t%32) … +127. -/
theorem blk_state (c : Dev nD) (t : Fin cfg0.N) (r : Fin 256) (l : Fin 128) :
    iblk m c 1 t (ix2 r l) = at2 (m ((c : Thread nD τ).loc main_arg1)) (256 * (t.val / 32) + r.val) (128 * (t.val % 32) + l.val) := by
  obtain ⟨-, -, e0, e1, -⟩ := idx_facts t
  unfold iblk
  rw [View.read_apply]
  show V m c main_arg1 _ = _
  rw [V_main_arg1]
  refine at2_of _ _ _ _ ?_ ?_
  · show win0_1.index t 0 * 256 + 1 * r.val = _
    rw [e0]; omega
  · show win0_1.index t 1 * 128 + 1 * l.val = _
    rw [e1]; omega

/-- The input weights are read whole at every grid point. -/
theorem blk_Win (c : Dev nD) (t : Fin cfg0.N) (h : Fin 4096) (d : Fin 1024) :
    iblk m c 2 t (ix2 h d) = at2 (m ((c : Thread nD τ).loc main_arg2)) h.val d.val := by
  obtain ⟨-, -, -, -, e0, e1, -⟩ := idx_facts t
  unfold iblk
  rw [View.read_apply]
  show V m c main_v0 _ = _
  rw [V_Win]
  refine at2_of _ _ _ _ ?_ ?_
  · show win0_2.index t 0 * 4096 + 1 * h.val = _
    rw [e0]; omega
  · show win0_2.index t 1 * 1024 + 1 * d.val = _
    rw [e1]; omega

/-- The summed hidden bias, one row, is read whole at every grid point: column h holds b_in(h) + b_rec(h). -/
theorem blk_bias (c : Dev nD) (t : Fin cfg0.N) (z : Fin 1) (h : Fin 4096) :
    iblk m c 3 t (ix2 z h) = at1 (m ((c : Thread nD τ).loc main_arg3)) h.val + at1 (m ((c : Thread nD τ).loc main_arg5)) h.val := by
  obtain ⟨-, -, -, -, -, -, e0, e1, -⟩ := idx_facts t
  unfold iblk
  rw [View.read_apply]
  show V m c main_v4 _ = _
  rw [V_bias]
  refine row_of_sum _ _ _ _ _ ?_
  show win0_3.index t 1 * 4096 + 1 * h.val = _
  rw [e1]; omega

/-- The block of the recurrent weights: all 4096 rows, columns 128·(t%32) … +127. -/
theorem blk_Wrec (c : Dev nD) (t : Fin cfg0.N) (h : Fin 4096) (l : Fin 128) :
    iblk m c 4 t (ix2 h l) = at2 (m ((c : Thread nD τ).loc main_arg4)) h.val (128 * (t.val % 32) + l.val) := by
  obtain ⟨-, -, -, -, -, -, -, -, e0, e1, -⟩ := idx_facts t
  unfold iblk
  rw [View.read_apply]
  show V m c main_v1 _ = _
  rw [V_Wrec]
  refine at2_of _ _ _ _ ?_ ?_
  · show win0_4.index t 0 * 4096 + 1 * h.val = _
    rw [e0]; omega
  · show win0_4.index t 1 * 128 + 1 * l.val = _
    rw [e1]; omega

/-- The output weights are read whole at every grid point. -/
theorem blk_Wout (c : Dev nD) (t : Fin cfg0.N) (o : Fin 1024) (h : Fin 4096) :
    iblk m c 5 t (ix2 o h) = at2 (m ((c : Thread nD τ).loc main_arg6)) o.val h.val := by
  obtain ⟨-, -, -, -, -, -, -, -, -, -, e0, e1, -⟩ := idx_facts t
  unfold iblk
  rw [View.read_apply]
  show V m c main_v2 _ = _
  rw [V_Wout]
  refine at2_of _ _ _ _ ?_ ?_
  · show win0_5.index t 0 * 1024 + 1 * o.val = _
    rw [e0]; omega
  · show win0_5.index t 1 * 4096 + 1 * h.val = _
    rw [e1]; omega

/-- The output bias, one row, is read whole at every grid point: column o holds b_out(o). -/
theorem blk_bout (c : Dev nD) (t : Fin cfg0.N) (z : Fin 1) (o : Fin 1024) :
    iblk m c 6 t (ix2 z o) = at1 (m ((c : Thread nD τ).loc main_arg7)) o.val := by
  obtain ⟨-, -, -, -, -, -, -, -, -, -, -, -, e0, e1⟩ := idx_facts t
  unfold iblk
  rw [View.read_apply]
  show V m c main_v5 _ = _
  rw [V_bout]
  refine row_of _ _ _ _ ?_
  show win0_6.index t 1 * 1024 + 1 * o.val = _
  rw [e1]; omega

end Cert.KernelIdeal.Blocks

end
-- ==== Proof.Fold.lean ====
/-
  The accumulator after any step of a row tile.

  Within row tile q (steps 32q, …, 32q+31) the accumulator is SET at the first step to the tile's input product plus
  the first recurrent tile, and each later step adds its own recurrent tile. So after step 32q + j it holds, at (r, h),

      Σ_d X(256q + r, d) · W_in(h, d)  +  Σ_{s ≤ j} Σ_l state(256q + r, 128 s + l) · W_rec(h, 128 s + l),

  by induction along the row tile's steps only — never over the 1024 points of the grid.
-/
import proofs.«174748_j50105088475253_2_alg».proof.Proof.Gen.KernelIdeal.Value
import proofs.«174748_j50105088475253_2_alg».proof.Proof.Pieces
import proofs.«174748_j50105088475253_2_alg».proof.Proof.PayloadIdx
import proofs.«174748_j50105088475253_2_alg».proof.Proof.Blocks
import proofs.«174748_j50105088475253_2_alg».proof.Proof.Tiling

noncomputable section

namespace Cert.KernelIdeal.Fold

open Cert.KernelIdeal Cert.KernelIdeal.Gen Cert.KernelIdeal.Value Cert.KernelIdeal.Blocks Cert.Tiling
open Idealize.ShloMosaic Idealize.ShloMosaic.TcCoe Idealize.ShloMosaic.ValueIdx Idealize.SL.Sem

variable (m : (ℓ : Loc nD τ sig) → Buf (Elt Ideal) ℓ)

/-- The input product of row tile `q` at an entry of the 256 x 4096 accumulator. -/
def inProd (c : Dev nD) (q : Nat) (i : S256x4096.Idx) : EReal :=
  ∑ d : Fin 1024, at2 (m ((c : Thread nD τ).loc main_arg0)) (256 * q + (i 0).val) d.val
    * at2 (m ((c : Thread nD τ).loc main_arg2)) (i 1).val d.val

/-- The recurrent tile of step `n` (row tile `n / 32`, columns `128 (n % 32) …`) at an entry of the accumulator. -/
def recTile (c : Dev nD) (n : Nat) (i : S256x4096.Idx) : EReal :=
  ∑ l : Fin 128, at2 (m ((c : Thread nD τ).loc main_arg1)) (256 * (n / 32) + (i 0).val) (128 * (n % 32) + l.val)
    * at2 (m ((c : Thread nD τ).loc main_arg4)) (i 1).val (128 * (n % 32) + l.val)

/-- A step that is not the first of its row tile adds its recurrent tile to the accumulator it found. -/
theorem step_eq (c : Dev nD) (n : Nat) (hb : n < cfg0.N) (h0 : ¬n % 32 = 0) (acc : Vec Ideal S256x4096 .f32) :
    scAt0_0 m c n hb acc = k0_pay2 (iblk m c 1 (⟨n, hb⟩ : Fin cfg0.N)) (iblk m c 4 (⟨n, hb⟩ : Fin cfg0.N)) acc := by
  unfold scAt0_0
  rw [dif_neg h0]
  by_cases h1 : n % 32 = 31
  · rw [dif_pos h1]
    exact Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc
  · rw [dif_neg h1]
    exact Pieces.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc

/-- The first step of a row tile sets the accumulator to the input product and adds its recurrent tile. -/
theorem first_eq (c : Dev nD) (n : Nat) (hb : n < cfg0.N) (h0 : n % 32 = 0) (acc : Vec Ideal S256x4096 .f32) :
    scAt0_0 m c n hb acc
      = k0_pay2 (iblk m c 1 (⟨n, hb⟩ : Fin cfg0.N)) (iblk m c 4 (⟨n, hb⟩ : Fin cfg0.N)) (k0_pay1 (iblk m c 0 (⟨n, hb⟩ : Fin cfg0.N)) (iblk m c 2 (⟨n, hb⟩ : Fin cfg0.N))) := by
  unfold scAt0_0
  rw [dif_pos h0, dif_neg (by omega)]
  exact Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))

/-- One accumulation at an entry, with the step's blocks read off the argument arrays. -/
theorem accumulate_at (c : Dev nD) (n : Nat) (hb : n < cfg0.N) (acc : Vec Ideal S256x4096 .f32) (i : S256x4096.Idx) :
    k0_pay2 (iblk m c 1 (⟨n, hb⟩ : Fin cfg0.N)) (iblk m c 4 (⟨n, hb⟩ : Fin cfg0.N)) acc i = acc i + recTile m c n i := by
  obtain ⟨r, h, rfl⟩ : ∃ (r : Fin 256) (h : Fin 4096), i = ix2 r h := ⟨i 0, i 1, eq_ix2 i⟩
  refine (PayloadIdx.accumulate_apply (iblk m c 1 (⟨n, hb⟩ : Fin cfg0.N)) (iblk m c 4 (⟨n, hb⟩ : Fin cfg0.N)) acc r h).trans ?_
  refine congrArg (acc (ix2 r h) + ·) (Finset.sum_congr rfl fun l _ => ?_)
  rw [blk_state m c (⟨n, hb⟩ : Fin cfg0.N) r l, blk_Wrec m c (⟨n, hb⟩ : Fin cfg0.N) h l]

theorem step_apply (c : Dev nD) (n : Nat) (hb : n < cfg0.N) (h0 : ¬n % 32 = 0) (acc : Vec Ideal S256x4096 .f32)
    (i : S256x4096.Idx) : scAt0_0 m c n hb acc i = acc i + recTile m c n i := by
  rw [step_eq m c n hb h0 acc]
  exact accumulate_at m c n hb acc i

theorem first_apply (c : Dev nD) (n : Nat) (hb : n < cfg0.N) (h0 : n % 32 = 0) (acc : Vec Ideal S256x4096 .f32)
    (i : S256x4096.Idx) : scAt0_0 m c n hb acc i = inProd m c (n / 32) i + recTile m c n i := by
  rw [first_eq m c n hb h0 acc, accumulate_at m c n hb _ i]
  obtain ⟨r, h, rfl⟩ : ∃ (r : Fin 256) (h : Fin 4096), i = ix2 r h := ⟨i 0, i 1, eq_ix2 i⟩
  refine congrArg (· + recTile m c n (ix2 r h)) ?_
  refine (PayloadIdx.inputProduct_apply (iblk m c 0 (⟨n, hb⟩ : Fin cfg0.N)) (iblk m c 2 (⟨n, hb⟩ : Fin cfg0.N)) r h).trans ?_
  refine Finset.sum_congr rfl fun d _ => ?_
  rw [blk_X m c (⟨n, hb⟩ : Fin cfg0.N) r d, blk_Win m c (⟨n, hb⟩ : Fin cfg0.N) h d]

/-- THE ACCUMULATOR AFTER STEP `t`: the row tile's input product plus the recurrent tiles of the steps so far. -/
theorem scratch_after (c : Dev nD) (t : Fin cfg0.N) (i : S256x4096.Idx) :
    (outsAt0 m c t.val t.isLt).2.2 i
      = inProd m c (t.val / 32) i + ∑ s ∈ Finset.range (t.val % 32 + 1), recTile m c (32 * (t.val / 32) + s) i := by
  rw [soutsAt0_0_eq m c t]
  have hN : cfg0.N = 1024 := N_0
  refine Pipeline.accAt_add_apply _ _ (inProd m c (t.val / 32)) (recTile m c) (32 * (t.val / 32)) 31 ?_ ?_
    (t.val % 32) (by omega) _ i
  · intro h i
    rw [first_apply m c _ h (by omega) _ i, Nat.mul_div_cancel_left _ (by decide : 0 < 32)]
  · intro n h acc i hlt hle
    exact step_apply m c n h (by omega) acc i

/-- Within row tile `q`, the recurrent tile of the tile's step `s` (`s < 32`): columns `128 s …` of row `256 q + r`. -/
theorem recTile_run (c : Dev nD) (q s : Nat) (hs : s < 32) (i : S256x4096.Idx) :
    recTile m c (32 * q + s) i
      = ∑ l : Fin 128, at2 (m ((c : Thread nD τ).loc main_arg1)) (256 * q + (i 0).val) (128 * s + l.val)
          * at2 (m ((c : Thread nD τ).loc main_arg4)) (i 1).val (128 * s + l.val) := by
  unfold recTile
  rw [show (32 * q + s) / 32 = q by omega, show (32 * q + s) % 32 = s by omega]

/-- THE ACCUMULATOR AFTER THE LAST STEP of a row tile: the input product plus all 32 recurrent tiles. -/
theorem acc_last (c : Dev nD) (t : Fin cfg0.N) (h31 : t.val % 32 = 31) (r : Fin 256) (h : Fin 4096) :
    (outsAt0 m c t.val t.isLt).2.2 (ix2 r h)
      = (∑ d : Fin 1024, at2 (m ((c : Thread nD τ).loc main_arg0)) (256 * (t.val / 32) + r.val) d.val
            * at2 (m ((c : Thread nD τ).loc main_arg2)) h.val d.val)
        + ∑ s ∈ Finset.range 32, ∑ l : Fin 128,
            at2 (m ((c : Thread nD τ).loc main_arg1)) (256 * (t.val / 32) + r.val) (128 * s + l.val)
              * at2 (m ((c : Thread nD τ).loc main_arg4)) h.val (128 * s + l.val) := by
  rw [scratch_after m c t (ix2 r h), h31]
  refine congrArg₂ (· + ·) rfl (Finset.sum_congr rfl fun s hs => ?_)
  exact recTile_run m c (t.val / 32) s (Finset.mem_range.mp hs) (ix2 r h)

end Cert.KernelIdeal.Fold

end
-- ==== Proof.Geometry.lean ====
/-
  Where the two output blocks sit, and that they cover the outputs.

  The grid has 32 × 32 points; point t has row tile t / 32 and column tile t % 32. Both outputs are written in blocks of
  256 whole rows: at point t the new state's block is rows 256·(t/32) … 256·(t/32) + 255 of the [8192, 4096] array, all
  4096 columns, and the output's block is the same rows of the [8192, 1024] array, all 1024 columns. A block's
  coordinate along an axis is (block index) × (block extent) + (coordinate inside the block); the block indices are the
  printed index maps, evaluated once over the 1024 grid points.

  A block is written back at the last step of its row tile, the points with t % 32 = 31. Every row ρ < 8192 lies in
  row tile ρ / 256 < 32, so the point 32·(ρ / 256) + 31 is a grid point, it writes back, and its block contains every
  entry of row ρ: the blocks written back cover both arrays.
-/
import proofs.«174748_j50105088475253_2_alg».proof.Proof.Tiling
import proofs.«174748_j50105088475253_2_alg».proof.Proof.Gen.KernelIdeal.Frame
import Idealize.ShloMosaic.Lib.Pipeline.Value

noncomputable section

namespace Cert.KernelIdeal.Geometry

open Cert.KernelIdeal Cert.KernelIdeal.Gen Cert.Tiling Idealize.ShloMosaic Idealize.ShloMosaic.TcCoe Idealize.ShloMosaic.ValueIdx Idealize.SL.Sem

/-- A matrix entry whose two coordinates are known as numbers is the entry at those numbers. -/
theorem at2_of {n0 n1 : Nat} (x : (⟨2, ![n0, n1]⟩ : Shape).Idx → EReal) (i : (⟨2, ![n0, n1]⟩ : Shape).Idx) (a b : Nat)
    (ha : (i 0).val = a) (hb : (i 1).val = b) : x i = at2 x a b := by rw [at2_idx x i, ha, hb]

/-! ## Which block each grid point writes -/

/-- Both output windows sit at row tile t / 32 and span all columns. -/
theorem idx_out : ∀ t : Fin cfg0.N, win0_7.index t (0 : Fin 2) = t.val / 32 ∧ win0_7.index t (1 : Fin 2) = 0
    ∧ win0_8.index t (0 : Fin 2) = t.val / 32 ∧ win0_8.index t (1 : Fin 2) = 0 :=
  (by decide +kernel : ∀ t : Fin grid0.N, _)

/-! ## An array read through an output block -/

/-- Entry (r, h) of the new state's block at point t is entry (256·(t/32) + r, h) of the array. -/
theorem read7 (G : (⟨2, ![8192, 4096]⟩ : Shape).Idx → EReal) (t : Fin cfg0.N) (r : Fin 256) (h : Fin 4096) :
    G (((cfg0.win 7).blk t).view.emb (ix2 r h)) = at2 G (256 * (t.val / 32) + r.val) h.val := by
  obtain ⟨e0, e1, -⟩ := idx_out t
  refine at2_of G _ _ _ ?_ ?_
  · show win0_7.index t (0 : Fin 2) * 256 + 1 * r.val = _
    rw [e0]; omega
  · show win0_7.index t (1 : Fin 2) * 4096 + 1 * h.val = _
    rw [e1]; omega

/-- Entry (r, o) of the output's block at point t is entry (256·(t/32) + r, o) of the array. -/
theorem read8 (G : (⟨2, ![8192, 1024]⟩ : Shape).Idx → EReal) (t : Fin cfg0.N) (r : Fin 256) (o : Fin 1024) :
    G (((cfg0.win 8).blk t).view.emb (ix2 r o)) = at2 G (256 * (t.val / 32) + r.val) o.val := by
  obtain ⟨-, -, e0, e1⟩ := idx_out t
  refine at2_of G _ _ _ ?_ ?_
  · show win0_8.index t (0 : Fin 2) * 256 + 1 * r.val = _
    rw [e0]; omega
  · show win0_8.index t (1 : Fin 2) * 1024 + 1 * o.val = _
    rw [e1]; omega

/-! ## The blocks written back cover the arrays -/

/-- An entry of the new-state array is in point t's block iff each coordinate is in the block's range on its axis. -/
theorem mem_blk7 (t : Fin cfg0.N) (i : S8192x4096.Idx) :
    i ∈ ((cfg0.win 7).blk t).view.set ↔ ∀ a : Fin 2, win0_7.index t a * S256x4096.size a ≤ (i a).val
      ∧ (i a).val < win0_7.index t a * S256x4096.size a + S256x4096.size a := by
  show i ∈ ((View.whole main_v6_0).slice (win0_7.rect t)).set ↔ _
  rw [View.set_slice_whole, Rect.mem_set_unit]
  exact Iff.rfl

/-- An entry of the output array is in point t's block iff each coordinate is in the block's range on its axis. -/
theorem mem_blk8 (t : Fin cfg0.N) (i : S8192x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v6_1).slice (win0_8.rect t)).set ↔ _
  rw [View.set_slice_whole, Rect.mem_set_unit]
  exact Iff.rfl

/-- Every entry of the new-state array is in a block that is written back: row ρ by the point 32·(ρ/256) + 31. -/
theorem cover7 (i : S8192x4096.Idx) :
    ∃ t : Fin cfg0.N, (cfg0.win 7).flush t = true ∧ i ∈ ((cfg0.win 7).blk t).view.set := by
  have hi0 : (i 0).val < 8192 := (i 0).isLt
  have hi1 : (i 1).val < 4096 := (i 1).isLt
  have hN : cfg0.N = 1024 := N_0
  obtain ⟨t, ht⟩ : ∃ t : Fin cfg0.N, t.val = 32 * ((i 0).val / 256) + 31 :=
    ⟨⟨32 * ((i 0).val / 256) + 31, by rw [hN]; omega⟩, rfl⟩
  obtain ⟨e0, e1, -⟩ := idx_out t
  refine ⟨t, (flush0_7 t).mpr (by omega), ?_⟩
  rw [mem_blk7]
  intro a
  match a with
  | ⟨0, _⟩ =>
    show win0_7.index t (0 : Fin 2) * 256 ≤ (i 0).val ∧ (i 0).val < win0_7.index t (0 : Fin 2) * 256 + 256
    rw [e0]; omega
  | ⟨1, _⟩ =>
    show win0_7.index t (1 : Fin 2) * 4096 ≤ (i 1).val ∧ (i 1).val < win0_7.index t (1 : Fin 2) * 4096 + 4096
    rw [e1]; omega

/-- Every entry of the output array is in a block that is written back: row ρ by the point 32·(ρ/256) + 31. -/
theorem cover8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 1024 := N_0
  obtain ⟨t, ht⟩ : ∃ t : Fin cfg0.N, t.val = 32 * ((i 0).val / 256) + 31 :=
    ⟨⟨32 * ((i 0).val / 256) + 31, by rw [hN]; omega⟩, rfl⟩
  obtain ⟨-, -, e0, e1⟩ := idx_out t
  refine ⟨t, (flush0_8 t).mpr (by omega), ?_⟩
  rw [mem_blk8]
  intro a
  match a with
  | ⟨0, _⟩ =>
    show win0_8.index t (0 : Fin 2) * 256 ≤ (i 0).val ∧ (i 0).val < win0_8.index t (0 : Fin 2) * 256 + 256
    rw [e0]; omega
  | ⟨1, _⟩ =>
    show win0_8.index t (1 : Fin 2) * 1024 ≤ (i 1).val ∧ (i 1).val < win0_8.index t (1 : Fin 2) * 1024 + 1024
    rw [e1]; omega

end Cert.KernelIdeal.Geometry

end
-- ==== Proof.Final.lean ====
/-
  The two result arrays after the run.

  A row tile's results are written back once, after its last step. There the accumulator holds the input product plus
  all 32 recurrent tiles of the row tile's rows, i.e. both contractions of the pre-activation in full; the bias row the
  kernel was handed is b_in + b_rec. So each entry of the new-state block is the specification's new state at row
  256 q + r, and each 512-column strip the output product reads is a strip of that same new state; the eight chunk
  products added in order are the whole contraction over the 4096 hidden units. The 32 written-back blocks tile each
  array, so the arrays end holding the specification's functions of the arguments.
-/
import proofs.«174748_j50105088475253_2_alg».proof.Proof.Gen.KernelIdeal.Value
import proofs.«174748_j50105088475253_2_alg».proof.Proof.Pieces
import proofs.«174748_j50105088475253_2_alg».proof.Proof.PayloadIdx
import proofs.«174748_j50105088475253_2_alg».proof.Proof.Blocks
import proofs.«174748_j50105088475253_2_alg».proof.Proof.Fold
import proofs.«174748_j50105088475253_2_alg».proof.Proof.Geometry
import proofs.«174748_j50105088475253_2_alg».proof.Proof.Tiling
import proofs.«174748_j50105088475253_2_alg».proof.Proof.Spec

noncomputable section

namespace Cert.KernelIdeal.Final

open Cert.KernelIdeal Cert.KernelIdeal.Gen Cert.KernelIdeal.Value Cert.KernelIdeal.Blocks Cert.KernelIdeal.Geometry Cert.Tiling
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification's new state of the launch contents of the arguments. -/
abbrev newStateOf (c : Dev nD) : (⟨2, ![8192, 4096]⟩ : Shape).Idx → EReal :=
  Cert.Spec.newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The specification's output of the launch contents of the arguments. -/
abbrev outOf (c : Dev nD) : (⟨2, ![8192, 1024]⟩ : Shape).Idx → EReal :=
  Cert.Spec.out (newStateOf m c) (m ((c : Thread nD τ).loc main_arg6)) (m ((c : Thread nD τ).loc main_arg7))

/-- At a last step the accumulator the results are read from is the one the step leaves: what the step before left,
    plus the step's recurrent tile. -/
theorem acc_step (c : Dev nD) (t : Fin cfg0.N) (h0 : ¬t.val % 32 = 0) (h31 : t.val % 32 = 31) :
    k0_pay2 (iblk m c 1 t) (iblk m c 4 t) ((outsAt0 m c (t.val - 1) (Nat.lt_of_le_of_lt (Nat.sub_le _ _) t.isLt)).2.2) = ((outsAt0 m c t.val t.isLt).2.2) := by
  have e := congrArg (fun p : Vec Ideal S256x4096 .f32 × Vec Ideal S256x1024 .f32 × Vec Ideal S256x4096 .f32 => p.2.2) (outsAt0_C m c t h0 h31)
  dsimp only at e
  rw [e]
  exact (Pieces.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) _ _ (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2.2)).symm

/-- AN ENTRY OF THE NEW-STATE BLOCK at a last step is the specification's new state at the block's row and column. -/
theorem ns_entry (c : Dev nD) (t : Fin cfg0.N) (h31 : t.val % 32 = 31) (y : S256x4096.Idx) :
    Pieces.newStateBlock (F := Ideal) ((outsAt0 m c t.val t.isLt).2.2) (iblk m c 3 t) y
      = at2 (newStateOf m c) (256 * (t.val / 32) + (y 0).val) (y 1).val := by
  obtain ⟨r, h, rfl⟩ : ∃ (r : Fin 256) (h : Fin 4096), y = ix2 r h := ⟨y 0, y 1, eq_ix2 y⟩
  have hN : cfg0.N = 1024 := N_0
  have hR : 256 * (t.val / 32) + r.val < 8192 := by have := t.isLt; have := r.isLt; omega
  show max (((outsAt0 m c t.val t.isLt).2.2) (ix2 r h) + iblk m c 3 t (ix2 (0 : Fin 1) h)) Cert.Spec.zeroWord
    = at2 (newStateOf m c) (256 * (t.val / 32) + r.val) h.val
  rw [at2_lt (newStateOf m c) _ _ hR h.isLt, Fold.acc_last m c t h31 r h, blk_bias m c t 0 h]
  unfold newStateOf
  rw [Cert.Spec.newState_apply, pre_tiled]

/-- An entry of a strip of the new state that the output product reads is the specification's new state there. -/
theorem strip_entry (c : Dev nD) (t : Fin cfg0.N) (h31 : t.val % 32 = 31) (o' : Nat)
    (inbS : ∀ a, (![0, o'] : Fin 2 → Nat) a + (![256, 512] : Fin 2 → Nat) a ≤ S256x4096.size a)
    (inbB : ∀ a, (![0, o'] : Fin 2 → Nat) a + (![1, 512] : Fin 2 → Nat) a ≤ S1x4096.size a) (r : Fin 256) (l : Fin 512) :
    Pieces.strip (F := Ideal)
        (View.ld (Val := Elt Ideal) (e' := .f32) ((outsAt0 m c t.val t.isLt).2.2) (Rect.unit (s := S256x4096) ![0, o'] ![256, 512] inbS))
        (View.ld (Val := Elt Ideal) (e' := .f32) (iblk m c 3 t) (Rect.unit (s := S1x4096) ![0, o'] ![1, 512] inbB)) (ix2 r l)
      = at2 (newStateOf m c) (256 * (t.val / 32) + r.val) (o' + l.val) := by
  refine (Pieces.strip_piece (F := Ideal) ((outsAt0 m c t.val t.isLt).2.2) (iblk m c 3 t) o' inbS inbB (ix2 r l)).trans ?_
  refine (ns_entry m c t h31 _).trans ?_
  show at2 (newStateOf m c) (256 * (t.val / 32) + (0 + 1 * r.val)) (o' + 1 * l.val) = _
  rw [Nat.zero_add, Nat.one_mul, Nat.one_mul]

/-- An entry of a 512-column chunk of the output weights the step was handed is the argument's entry there. -/
theorem Wout_entry (c : Dev nD) (t : Fin cfg0.N) (o' : Nat)
    (inbW : ∀ a, (![0, o'] : Fin 2 → Nat) a + (![1024, 512] : Fin 2 → Nat) a ≤ S1024x4096.size a) (o : Fin 1024) (l : Fin 512) :
    View.ld (Val := Elt Ideal) (e' := .bf16) (iblk m c 5 t) (Rect.unit (s := S1024x4096) ![0, o'] ![1024, 512] inbW) (ix2 o l)
      = at2 (m ((c : Thread nD τ).loc main_arg6)) o.val (o' + l.val) := by
  have hb : o' + l.val < 4096 := by
    have h1 : o' + 512 ≤ 4096 := inbW 1
    have := l.isLt; omega
  have e : (Rect.unit (s := S1024x4096) ![0, o'] ![1024, 512] inbW).idx (ix2 o l) = ix2 o (⟨o' + l.val, hb⟩ : Fin 4096) :=
    funext fun a => Fin.ext (by
      match a with
      | ⟨0, _⟩ => show 0 + 1 * o.val = o.val; omega
      | ⟨1, _⟩ => show o' + 1 * l.val = o' + l.val; omega)
  show iblk m c 5 t ((Rect.unit (s := S1024x4096) ![0, o'] ![1024, 512] inbW).idx (ix2 o l)) = _
  rw [e, blk_Wout m c t o ⟨o' + l.val, hb⟩]

/-- AN ENTRY OF THE OUTPUT BLOCK at a last step is the specification's output at the block's row and column. -/
theorem out_entry (c : Dev nD) (t : Fin cfg0.N) (h0 : ¬t.val % 32 = 0) (h31 : t.val % 32 = 31) (r : Fin 256) (o : Fin 1024) :
    (outsAt0 m c t.val t.isLt).2.1 (ix2 r o) = at2 (outOf m c) (256 * (t.val / 32) + r.val) o.val := by
  have hN : cfg0.N = 1024 := N_0
  have hR : 256 * (t.val / 32) + r.val < 8192 := by have := t.isLt; have := r.isLt; omega
  rw [at2_lt (outOf m c) _ _ hR o.isLt]
  unfold outOf
  rw [out_tiled]
  have e := congrArg (fun p : Vec Ideal S256x4096 .f32 × Vec Ideal S256x1024 .f32 × Vec Ideal S256x4096 .f32 => p.2.1) (outsAt0_C m c t h0 h31)
  dsimp only at e
  rw [e, Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) _ _ (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2.2), acc_step m c t h0 h31]
  refine (PayloadIdx.outBlock_apply _ _ _ _ _ _ _ _ _ _ _ _ _ _ _ _ _ r o).trans ?_
  simp only [strip_entry m c t h31, Wout_entry m c t, blk_bout m c t 0 o, Nat.zero_add, Ideal.ofBits_zero_f32]

/-- What the last step of a row tile writes back to the new-state array is its block of the specification's new state. -/
theorem flushed7_eq (c : Dev nD) (t : Fin cfg0.N) (hf : (cfg0.win 7).flush t = true) :
    (dats m 0 c).flushed 7 t = ((cfg0.win 7).blk t).view.read (Elt Ideal) (newStateOf m c) := by
  have h31 : t.val % 32 = 31 := (flush0_7 t).mp hf
  have h0 : ¬t.val % 32 = 0 := by omega
  rw [flushed7_C m c t h0 h31, Pieces.newState_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) _ _ (iblk m c 0 t) (iblk m c 1 t) (iblk m c 2 t) (iblk m c 3 t) (iblk m c 4 t) (iblk m c 5 t) (iblk m c 6 t) _, acc_step m c t h0 h31]
  funext y
  obtain ⟨r, h, rfl⟩ : ∃ (r : Fin 256) (h : Fin 4096), y = ix2 r h := ⟨y 0, y 1, eq_ix2 y⟩
  show Pieces.newStateBlock (F := Ideal) ((outsAt0 m c t.val t.isLt).2.2) (iblk m c 3 t) (ix2 r h)
    = newStateOf m c (((cfg0.win 7).blk t).view.emb (ix2 r h))
  rw [read7 (newStateOf m c) t r h]
  exact ns_entry m c t h31 (ix2 r h)

/-- What the last step of a row tile writes back to the output array is its block of the specification's output. -/
theorem flushed8_eq (c : Dev nD) (t : Fin cfg0.N) (hf : (cfg0.win 8).flush t = true) :
    (dats m 0 c).flushed 8 t = ((cfg0.win 8).blk t).view.read (Elt Ideal) (outOf m c) := by
  have h31 : t.val % 32 = 31 := (flush0_8 t).mp hf
  have h0 : ¬t.val % 32 = 0 := by omega
  rw [flushed8 m c t]
  funext y
  obtain ⟨r, o, rfl⟩ : ∃ (r : Fin 256) (o : Fin 1024), y = ix2 r o := ⟨y 0, y 1, eq_ix2 y⟩
  show (outsAt0 m c t.val t.isLt).2.1 (ix2 r o) = outOf m c (((cfg0.win 8).blk t).view.emb (ix2 r o))
  rw [read8 (outOf m c) t r o]
  exact out_entry m c t h0 h31 r o

/-- The new-state array after the run. -/
theorem final7 (c : Dev nD) : (dats m 0 c).arrAt 7 cfg0.N = newStateOf m c :=
  (dats m 0 c).arrAt_eq_of_cover 7 (newStateOf m c) (flushed7_eq m c) cover7

/-- The output array after the run. -/
theorem final8 (c : Dev nD) : (dats m 0 c).arrAt 8 cfg0.N = outOf m c :=
  (dats m 0 c).arrAt_eq_of_cover 8 (outOf m c) (flushed8_eq m c) cover8

/-- THE RUN, READ: every weakly fair execution ends with the two result arrays at the specification's functions of the
    arguments' launch contents, the arguments unchanged. -/
theorem run : θ_run defs (onTc (τ := τ) (main (F := Ideal))) ⟨m, fun _ => 0, ρ⟩ fun r => ∀ c : Dev nD,
      r.2.mem ((c : Thread nD τ).loc main_v6_1) = outOf m c
      ∧ r.2.mem ((c : Thread nD τ).loc main_v6_0) = newStateOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).2.1.trans (final8 m c), (h c).1.trans (final7 m c), (h c).2.2⟩)
    (run_blocks m ρ)

end Cert.KernelIdeal.Final

end
-- ==== Proof.lean ====
/-
  A single step of a ReLU recurrent cell: the tiled kernel against its plain reference, on the extended reals.

  Both programs compute
      new_state = max(X·W_inᵀ + state·W_recᵀ + b_in + b_rec, 0),      out = max(new_state·W_outᵀ + b_out, 0).
  The kernel cuts the batch into 32 row tiles of 256 rows and the recurrent contraction into 32 tiles of 128 columns,
  accumulating them in a scratch buffer across the steps of a row tile; at a row tile's last step it adds the
  pre-summed bias b_in + b_rec, clamps, and forms the output product in 8 chunks of 512 hidden units. The reference
  adds b_in after the input product and b_rec after the recurrent one. The two differ only in how sums are grouped:
  addition on the extended reals is commutative and associative (also at the infinities), a change of float format is
  the identity there, and a matrix product into a zero accumulator is the plain sum of products. So the precondition
  (finite inputs) is never opened.

  Proof/Spec.lean states the two results as functions of the arguments; Proof/RefSpec.lean shows the reference's
  result terms are those functions; Proof/Tiling.lean cuts their sums into the kernel's tiles; Proof/MatmulIdx.lean,
  Proof/PayloadIdx.lean, Proof/Pieces.lean, Proof/Blocks.lean, Proof/Geometry.lean read the kernel's arithmetic, stores,
  input blocks and output blocks; Proof/Fold.lean is the accumulator after any step; Proof/Final.lean the result arrays.
-/
import proofs.«174748_j50105088475253_2_alg».proof.Defs
import proofs.«174748_j50105088475253_2_alg».proof.Proof.Gen.Kernel
import proofs.«174748_j50105088475253_2_alg».proof.Proof.Gen.Kernel.Frame
import proofs.«174748_j50105088475253_2_alg».proof.Proof.Gen.KernelIdeal
import proofs.«174748_j50105088475253_2_alg».proof.Proof.Gen.KernelIdeal.Frame
import proofs.«174748_j50105088475253_2_alg».proof.Proof.Gen.KernelIdeal.Value
import proofs.«174748_j50105088475253_2_alg».proof.Proof.Gen.ReferenceIdeal
import proofs.«174748_j50105088475253_2_alg».proof.Proof.Gen.ReferenceIdeal.Run
import proofs.«174748_j50105088475253_2_alg».proof.Proof.Gen.ReferenceIdeal.Read
import proofs.«174748_j50105088475253_2_alg».proof.Proof.Gen.Pre_finite_inputs
import proofs.«174748_j50105088475253_2_alg».proof.Proof.RefSpec
import proofs.«174748_j50105088475253_2_alg».proof.Proof.Final
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Reading the kernel on the extended reals rewrote no operation. -/
theorem preserves : Cert.preserves_Kernel_KernelIdeal := trivial

/-- Both runs end with `out` and `new_state` at the specification's functions of arguments that agree. -/
theorem algebraic : Cert.algebraic_KernelIdeal_ReferenceIdeal := by
  intro m ρ m' ρ' _ hagree
  refine ⟨fun c => Cert.KernelIdeal.Final.outOf m c, fun c => Cert.KernelIdeal.Final.newStateOf m c,
    Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7⟩ := hagree c
    rw [Cert.ReferenceIdeal.Read.val_main_v17_eq, Cert.RefSpec.out_eq, e0, e1, e2, e3, e4, e5, e6, e7]
  · obtain ⟨e0, e1, e2, e3, e4, e5, e6, e7⟩ := hagree c
    rw [Cert.ReferenceIdeal.Read.val_main_v11_eq, Cert.RefSpec.newState_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
